-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x64 .f32) (main_arg1 : IVec S2x800000 32) (main_arg2 : FVec F S64x64 .f32) (main_arg3 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x64 : Shape := ⟨2, ![5000, 64]⟩
abbrev S5000x1 : Shape := ⟨2, ![5000, 1]⟩
abbrev S800000x64 : Shape := ⟨2, ![800000, 64]⟩
abbrev S1x64 : Shape := ⟨2, ![1, 64]⟩

abbrev nBuf : Space → Nat
  | .hbm => 40
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S800000, .i1⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000x1, .f32⟩
  | .hbm, ⟨21, _⟩ => ⟨S50000x64, .f32⟩
  | .hbm, ⟨22, _⟩ => ⟨S50000x64, .f32⟩
  | .hbm, ⟨23, _⟩ => ⟨S800000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .f32⟩
  | .hbm, ⟨33, _⟩ => ⟨S800000x64, .f32⟩
  | .hbm, ⟨34, _⟩ => ⟨S800000x64, .f32⟩
  | .hbm, ⟨35, _⟩ => ⟨S_, .f32⟩
  | .hbm, ⟨36, _⟩ => ⟨S50000x64, .f32⟩
  | .hbm, ⟨37, _⟩ => ⟨S800000x1, .i32⟩
  | .hbm, ⟨38, _⟩ => ⟨S50000x64, .f32⟩
  | .hbm, ⟨39, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S64, .f32⟩
  | .local _ .vmem, ⟨16, _⟩ => ⟨S5000x64, .f32⟩
  | .local _ .vmem, ⟨17, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  inb_S64_S64_0 : ∀ a, (![0] : Fin 1 → Nat) a + S64.size a ≤ S64.size a
  h_S64 : 0 < S64.numel
  shapeCasts_S64_S1x64 : S64.ShapeCasts S1x64
  shapeCasts_S1x64_S1x64 : S1x64.ShapeCasts S1x64
  broadcasts_S1x64_S5000x64 : S1x64.Broadcasts S5000x64
  shapeCasts_S5000x64_S5000x64 : S5000x64.ShapeCasts S5000x64
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14_0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩

abbrev nBuf : Space → Nat
  | .hbm => 65
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S800000, .i1⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S800000x1, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x64, .f32⟩
  | .hbm, ⟨51, _⟩ => ⟨S800000x64, .f32⟩
  | .hbm, ⟨52, _⟩ => ⟨S800000x64, .f32⟩
  | .hbm, ⟨53, _⟩ => ⟨S_, .f32⟩
  | .hbm, ⟨54, _⟩ => ⟨S50000x64, .f32⟩
  | .hbm, ⟨55, _⟩ => ⟨S800000x1, .i32⟩
  | .hbm, ⟨56, _⟩ => ⟨S50000x64, .f32⟩
  | .hbm, ⟨57, _⟩ => ⟨S50000, .f32⟩
  | .hbm, ⟨58, _⟩ => ⟨S50000x1, .f32⟩
  | .hbm, ⟨59, _⟩ => ⟨S50000x64, .f32⟩
  | .hbm, ⟨60, _⟩ => ⟨S50000x64, .f32⟩
  | .hbm, ⟨61, _⟩ => ⟨S50000x64, .f32⟩
  | .hbm, ⟨62, _⟩ => ⟨S1x64, .f32⟩
  | .hbm, ⟨63, _⟩ => ⟨S50000x64, .f32⟩
  | .hbm, ⟨64, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.RunValue.lean ====
/-
  The idealized kernel's run, with the result named. @main is four segments — the host operations before the first
  kernel call, the first call's grid, the host operations between the calls, the second call's grid — and the buffer
  contents at each boundary are a fold from the launch memory: `W1` after the first stretch of host operations, `W2`
  after the first grid (its two output arrays at what the ten write-backs leave), `W3` after the second stretch, `W4`
  after the second grid. Every weakly fair execution terminates with EVERY unscoped buffer at `W4`; read at the result
  buffer this names the result, and at an argument buffer it is the launch contents.
-/
import proofs.«177149_j19361712570525_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents `W4` and the four argument arrays as launched: the launch over the four segments, the last thread state
    (every unscoped buffer held at `W4`) read against the final memory. -/
theorem run_out : θ_run defs (onTc (τ := τ) (main (F := F))) ⟨m, fun _ => 0, ρ⟩ (fun r => ∀ c : Dev nD,
      r.2.mem ((c.tc : Thread nD τ).loc main_v28) = W4 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v28 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.RunValue

end
-- ==== Proof.HostChain.lean ====
/-
  The host operations around the two kernel calls, read back.

  Before the first call the program computes, from the edge list alone, the row and column numbers of the edges, the
  off-diagonal mask, the degrees and their inverse square roots; the first call reads the features, the weights and
  the inverse square roots as a column. Between the calls it gathers the scaled support at the column numbers, masks
  it and sums it by row number; the second call reads that sum, the support, the column of inverse square roots and
  the bias. Each buffer a call reads is named here as a function of the launch memory and of the first call's two
  output arrays, in the vocabulary of the reference program's own stages wherever the two programs apply the same
  operations to the edge list.
-/
import proofs.«177149_j19361712570525_2_alg».proof.Proof.Gen.KernelIdeal.Frame
import proofs.«177149_j19361712570525_2_alg».proof.Proof.Gen.ReferenceIdeal.Read

set_option maxRecDepth 16384

noncomputable section

namespace Cert.KernelIdeal.HostChain

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The edge list at launch. -/
abbrev adj : (⟨S2x800000, .i32⟩ : BufTy).Contents (Elt Ideal) := m ((c : Thread nD τ).loc main_arg1)

/-! ## At the first call's entry -/

/-- The features are as launched. -/
theorem entry0_x : V1 m ρ c main_arg0 = m ((c : Thread nD τ).loc main_arg0) := by
  show StableHlo.after hostOps0 (W0 m ρ c) (Proc.devRef .tc main_arg0) = _
  after_results

/-- The weights are as launched. -/
theorem entry0_w : V1 m ρ c main_arg2 = m ((c : Thread nD τ).loc main_arg2) := by
  show StableHlo.after hostOps0 (W0 m ρ c) (Proc.devRef .tc main_arg2) = _
  after_results

/-- The column the first call reads is the inverse square roots of the degrees, one per row. -/
theorem entry0_d : V1 m ρ c main_v13 =
    shapeCast S50000x1 (Cert.ReferenceIdeal.Read.val_main_v12 (F := Ideal) (adj m c)) shapeCasts_S50000_S50000x1 := by
  show StableHlo.after hostOps0 (W0 m ρ c) (Proc.devRef .tc main_v13) = _
  after_results
  rfl

/-- The row numbers of the edges. -/
theorem entry0_row : W1 m ρ c (Proc.devRef .tc main_v1) = Cert.ReferenceIdeal.Read.val_main_v1 (F := Ideal) (adj m c) := by
  show StableHlo.after hostOps0 (W0 m ρ c) (Proc.devRef .tc main_v1) = _
  after_results
  rfl

/-- The column numbers of the edges. -/
theorem entry0_col : W1 m ρ c (Proc.devRef .tc main_v3) = Cert.ReferenceIdeal.Read.val_main_v3 (F := Ideal) (adj m c) := by
  show StableHlo.after hostOps0 (W0 m ρ c) (Proc.devRef .tc main_v3) = _
  after_results
  rfl

/-- The off-diagonal mask of the edges. -/
theorem entry0_off : W1 m ρ c (Proc.devRef .tc main_v5) = Cert.ReferenceIdeal.Read.val_main_v5 (F := Ideal) (adj m c) := by
  show StableHlo.after hostOps0 (W0 m ρ c) (Proc.devRef .tc main_v5) = _
  after_results
  rfl

/-- The bias is as launched. -/
theorem entry0_b : W1 m ρ c (Proc.devRef .tc main_arg3) = m ((c : Thread nD τ).loc main_arg3) := by
  show StableHlo.after hostOps0 (W0 m ρ c) (Proc.devRef .tc main_arg3) = _
  after_results

/-! ## At the first call's exit -/

/-- The support array is what the first call's write-backs leave in its first output. -/
theorem exit0_support : W2 m ρ c (Proc.devRef .tc main_v14_0) = (dat0 (V1 m ρ) c).arrAt 3 cfg0.N := W2_arr m ρ c 3

/-- The scaled support array is what the first call's write-backs leave in its second output. -/
theorem exit0_scaled : W2 m ρ c (Proc.devRef .tc main_v14_1) = (dat0 (V1 m ρ) c).arrAt 4 cfg0.N := W2_arr m ρ c 4

/-- The column of inverse square roots is an input of the first call: it leaves it as it found it. -/
theorem exit0_d : W2 m ρ c (Proc.devRef .tc main_v13) = V1 m ρ c main_v13 :=
  (W2_arr m ρ c 2).trans (((dat0 (V1 m ρ) c).arrAt_in 2 rfl _).trans (A_eq0 (V1 m ρ) c 2))

/-- The first call does not touch the row numbers. -/
theorem exit0_row : W2 m ρ c (Proc.devRef .tc main_v1) = Cert.ReferenceIdeal.Read.val_main_v1 (F := Ideal) (adj m c) :=
  (W2_of_ne m ρ c main_v1 (by decide)).trans (entry0_row m ρ c)

/-- The first call does not touch the column numbers. -/
theorem exit0_col : W2 m ρ c (Proc.devRef .tc main_v3) = Cert.ReferenceIdeal.Read.val_main_v3 (F := Ideal) (adj m c) :=
  (W2_of_ne m ρ c main_v3 (by decide)).trans (entry0_col m ρ c)

/-- The first call does not touch the off-diagonal mask. -/
theorem exit0_off : W2 m ρ c (Proc.devRef .tc main_v5) = Cert.ReferenceIdeal.Read.val_main_v5 (F := Ideal) (adj m c) :=
  (W2_of_ne m ρ c main_v5 (by decide)).trans (entry0_off m ρ c)

/-- The first call does not touch the bias. -/
theorem exit0_b : W2 m ρ c (Proc.devRef .tc main_arg3) = m ((c : Thread nD τ).loc main_arg3) :=
  (W2_of_ne m ρ c main_arg3 (by decide)).trans (entry0_b m ρ c)

/-! ## At the second call's entry -/

/-- The support array is untouched between the calls. -/
theorem entry1_support : V3 m ρ c main_v14_0 = (dat0 (V1 m ρ) c).arrAt 3 cfg0.N := by
  show StableHlo.after hostOps1 (W2 m ρ c) (Proc.devRef .tc main_v14_0) = _
  after_results
  exact exit0_support m ρ c

/-- The column of inverse square roots is untouched between the calls. -/
theorem entry1_d : V3 m ρ c main_v13 =
    shapeCast S50000x1 (Cert.ReferenceIdeal.Read.val_main_v12 (F := Ideal) (adj m c)) shapeCasts_S50000_S50000x1 := by
  show StableHlo.after hostOps1 (W2 m ρ c) (Proc.devRef .tc main_v13) = _
  after_results
  exact (exit0_d m ρ c).trans (entry0_d m ρ c)

/-- The bias is untouched between the calls. -/
theorem entry1_b : V3 m ρ c main_arg3 = m ((c : Thread nD τ).loc main_arg3) := by
  show StableHlo.after hostOps1 (W2 m ρ c) (Proc.devRef .tc main_arg3) = _
  after_results
  exact exit0_b m ρ c

set_option maxHeartbeats 4000000 in
/-- The array the second call aggregates from: the masked rows of the scaled support gathered at the edges' column
    numbers (wrapped when negative, clamped into range), summed by the edges' row numbers (an edge whose row number is
    out of range is dropped). -/
theorem entry1_agg : V3 m ρ c main_v27 =
    Host.scatterAdd (F := Ideal) scatter_S50000x64_S800000x1_S800000x64_1_0_0_1
      (Cert.ReferenceIdeal.Read.val_main_v40 (F := Ideal))
      (Cert.ReferenceIdeal.Read.val_main_v41 (F := Ideal) (adj m c))
      (mulf (φ := .f32) (broadcastInDim S800000x64 ![0, 1] bcast_S800000x1_S800000x64_0_1
              (broadcastInDim S800000x1 ![0] bcast_S800000_S800000x1_0
                (Cert.ReferenceIdeal.Read.val_main_v5 (F := Ideal) (adj m c) : FVec Ideal S800000 .f32) : FVec Ideal S800000x1 .f32) : FVec Ideal S800000x64 .f32)
            (Host.gather gather_S50000x64_S800000x1_S800000x64_1_0_n_n_0_1_164 ((dat0 (V1 m ρ) c).arrAt 4 cfg0.N : FVec Ideal S50000x64 .f32)
              (Cert.ReferenceIdeal.Read.val_main_v36 (F := Ideal) (adj m c)) : FVec Ideal S800000x64 .f32)) := by
  show StableHlo.after hostOps1 (W2 m ρ c) (Proc.devRef .tc main_v27) = _
  after_results_simp
  rw [exit0_row, exit0_col, exit0_off, exit0_scaled]
  rfl

end Cert.KernelIdeal.HostChain

end
-- ==== Proof.LibSegment.lean ====
/-
  ROW GATHER AND SEGMENT SUM READ AT AN INDEX.

  With start indices `idx` of shape `[E, 1]` (one row number per edge):
  the row gather `x[idx]` of a table `x : [N, C]` has at `(e, j)` the entry of `x` at row `idx[e, 0]` (read signed, clamped
  into `[0, N − 1]`) and column `j`; the segment sum of updates `[E, C]` into an operand `[N, C]` adds to entry `(n, j)`
  every update `(e, j)` whose row number `idx[e, 0]` (read signed, NOT clamped: a row number outside `[0, N)` drops the
  update) is `n`; likewise for a rank-1 operand `[N]` and updates `[E]`. The same function `rowOf` names the row read
  for every width `C`, and the same function `segOf` names the row added to for every width `C` and for rank 1, so sums
  over the edges of one segment can be compared across widths.
-/
import Idealize.ShloMosaic.PureOps.Ideal
import Idealize.ShloMosaic.Lib.ValueIdx

noncomputable section

open scoped BigOperators

namespace Cert.LibSegment

open Idealize.ShloMosaic Idealize.ShloMosaic.ValueIdx

/-! ## Coordinates of a rank-2 index, typed by the extents -/

/-- The first coordinate of a rank-2 index, as an element of `Fin n0`. -/
abbrev fst2 {n0 n1 : Nat} (i : (⟨2, ![n0, n1]⟩ : Shape).Idx) : Fin n0 := i 0
/-- The second coordinate of a rank-2 index, as an element of `Fin n1`. -/
abbrev snd2 {n0 n1 : Nat} (i : (⟨2, ![n0, n1]⟩ : Shape).Idx) : Fin n1 := i 1
/-- The coordinate of a rank-1 index, as an element of `Fin n`. -/
abbrev fst1 {n : Nat} (i : (⟨1, ![n]⟩ : Shape).Idx) : Fin n := i 0

/-! ## The row a start index names -/

/-- The row of an `N`-row table that edge `e` reads: its start index `idx[e, 0]` as a signed integer, clamped into
    `[0, N − 1]` (a negative index reads row `0`, one past the end reads the last row). -/
def rowOf {N E w : Nat} (hN : 0 < N) (idx : IVec ⟨2, ![E, 1]⟩ w) (e : Fin E) : Fin N :=
  ⟨min (idx (ix2 e (0 : Fin 1))).toInt.toNat (N - 1), by omega⟩

/-- The row of an `N`-row operand that the update of edge `e` is added to: its start index `idx[e, 0]` as a signed
    integer when that lies in `[0, N)`; `none` when it does not (the update is dropped, not clamped). -/
def segOf {N E w : Nat} (idx : IVec ⟨2, ![E, 1]⟩ w) (e : Fin E) : Option (Fin N) :=
  if h : 0 ≤ (idx (ix2 e (0 : Fin 1))).toInt ∧ (idx (ix2 e (0 : Fin 1))).toInt < N then
    some ⟨(idx (ix2 e (0 : Fin 1))).toInt.toNat, by omega⟩
  else none

/-- Edge `e` is added to row `n` exactly when its start index, read signed, IS `n`. -/
theorem segOf_eq_some_iff {N E w : Nat} (idx : IVec ⟨2, ![E, 1]⟩ w) (e : Fin E) (n : Fin N) :
    segOf idx e = some n ↔ (idx (ix2 e (0 : Fin 1))).toInt = (n.val : Int) := by
  unfold segOf
  have hn := n.isLt
  split
  · rename_i h
    rw [Option.some.injEq, Fin.ext_iff]
    show (idx (ix2 e (0 : Fin 1))).toInt.toNat = n.val ↔ _
    omega
  · rename_i h
    constructor
    · intro h2; exact absurd h2 (by simp)
    · intro h2; exact absurd ⟨by omega, by omega⟩ h

/-- An edge whose start index lies in `[0, N)` reads the row it is added to: the clamp does nothing there. -/
theorem rowOf_eq_of_segOf {N E w : Nat} (hN : 0 < N) (idx : IVec ⟨2, ![E, 1]⟩ w) (e : Fin E) (n : Fin N)
    (h : segOf idx e = some n) : rowOf hN idx e = n := by
  have h2 := (segOf_eq_some_iff idx e n).mp h
  have hn := n.isLt
  refine Fin.ext ?_
  show min (idx (ix2 e (0 : Fin 1))).toInt.toNat (N - 1) = n.val
  omega

/-! ## The row gather -/

section Rows
variable {α : Type}

/-- The dimension numbers of the row gather: operand `[N, C]`, start indices `[E, 1]`, result `[E, C]`; axis 0 of the
    operand is collapsed and indexed, axis 1 is copied whole. Their conditions `wf` are decided on literal shapes. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT AN INDEX `y = (e, j)`: the table at row `rowOf idx e`, column `j`. On axis 0 the operand
    coordinate is the clamped start index alone (the axis is collapsed: no offset); on axis 1 it is the offset `j`
    alone (the axis is not indexed: start `0`). -/
theorem gather_rows_apply_idx {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (rowsDims N E C wf) x idx y = x (ix2 (rowOf hN idx (fst2 y)) (snd2 y)) := by
  unfold Host.gather
  congr 1
  funext a
  refine Fin.ext ?_
  match a with
  | ⟨0, _⟩ =>
    show (rowsDims N E C wf).start y idx 0 + (rowsDims N E C wf).batchCoord y 0 + (rowsDims N E C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx y ⟨List.idxOf (0 : Fin 2) (rowsDims N E C wf).startIndexMap,
        List.idxOf_lt_length_iff.2 (List.mem_singleton.mpr rfl)⟩ = ix2 (fst2 y) (0 : Fin 1) := by
      funext b; refine Fin.ext ?_
      match b with
      | ⟨0, _⟩ => rfl
      | ⟨1, _⟩ => rfl
    rw [hsi]
    rfl
  | ⟨1, _⟩ =>
    show (rowsDims N E C wf).start y idx 1 + (rowsDims N E C wf).batchCoord y 1 + (rowsDims N E C wf).offCoord y 1 = (y 1).val
    rw [GatherDims.batchCoord_eq_zero _ _ _ List.not_mem_nil]
    unfold GatherDims.start
    rw [dif_neg (show (1 : Fin 2) ∉ (rowsDims N E C wf).startIndexMap from
      fun h => absurd (List.mem_singleton.mp h) (by decide : ¬ ((1 : Fin 2) = 0)))]
    simp only [Nat.add_zero, Nat.zero_add]
    unfold GatherDims.offCoord
    rw [dif_pos (show (1 : Fin 2) ∈ (rowsDims N E C wf).sKept from
      (GatherDims.mem_sKept _ _).mpr
        ⟨fun h => absurd (List.mem_singleton.mp h) (by decide : ¬ ((1 : Fin 2) = 0)), List.not_mem_nil⟩)]
    rfl

/-- The row gather at `(e, j)`: the table at row `rowOf idx e`, column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowsDims N E C wf) x idx (ix2 e j) = x (ix2 (rowOf hN idx e) j) :=
  gather_rows_apply_idx hN wf x idx (ix2 e j)

end Rows

/-! ## The segment sum into a rank-2 operand -/

section Seg

/-- The dimension numbers of the segment sum into `[N, C]`: scatter indices `[E, 1]`, updates `[E, C]`; axis 0 of the
    operand is the indexed one (an inserted window axis), axis 1 of the updates is the window, copied onto axis 1 of
    the operand. Their conditions `wf` are decided on literal shapes. -/
abbrev segDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (u : (⟨2, ![E, C]⟩ : Shape).Idx)

/-- On axis 0 the window of update `(e, j)` starts at the start index `idx[e, 0]`, read signed. -/
theorem seg_start0 : (segDims N E C wf).start u idx 0 = (idx (ix2 (fst2 u) (0 : Fin 1))).toInt := by
  unfold ScatterDims.start
  rw [dif_pos (show (0 : Fin 2) ∈ (segDims N E C wf).scatterDimsToOperandDims from List.mem_singleton.mpr rfl)]
  have hsi : (segDims N E C wf).siIdx u ⟨List.idxOf (0 : Fin 2) (segDims N E C wf).scatterDimsToOperandDims,
      List.idxOf_lt_length_iff.2 (List.mem_singleton.mpr rfl)⟩ = ix2 (fst2 u) (0 : Fin 1) := by
    funext b; refine Fin.ext ?_
    match b with
    | ⟨0, _⟩ => rfl
    | ⟨1, _⟩ => rfl
  rw [hsi]

/-- Axis 1 is not indexed: the window starts at `0` there. -/
theorem seg_start1 : (segDims N E C wf).start u idx 1 = 0 := by
  unfold ScatterDims.start
  rw [dif_neg (show (1 : Fin 2) ∉ (segDims N E C wf).scatterDimsToOperandDims from
    fun h => absurd (List.mem_singleton.mp h) (by decide : ¬ ((1 : Fin 2) = 0)))]

/-- Axis 0 is an inserted window axis: no window coordinate there. -/
theorem seg_window0 : (segDims N E C wf).window u 0 = 0 := by
  unfold ScatterDims.window
  rw [dif_neg (show (0 : Fin 2) ∉ (segDims N E C wf).sKept from fun h =>
    (List.mem_filter.mp h).2 |> fun h2 => absurd (List.mem_singleton.mpr rfl) (of_decide_eq_true h2))]

/-- On axis 1 the window coordinate of update `(e, j)` is `j`. -/
theorem seg_window1 : (segDims N E C wf).window u 1 = (u 1).val := by
  unfold ScatterDims.window
  rw [dif_pos (show (1 : Fin 2) ∈ (segDims N E C wf).sKept from
    List.mem_filter.mpr ⟨List.mem_finRange _, decide_eq_true
      (fun h => absurd (List.mem_singleton.mp h) (by decide : ¬ ((1 : Fin 2) = 0)))⟩)]
  rfl

/-- WHERE AN UPDATE LANDS: update `u = (e, k)` lands at `(n, j)` exactly when edge `e` is added to row `n` and
    `k = j`. -/
theorem seg_resultIdx?_eq_some_iff (n : Fin N) (j : Fin C) :
    (segDims N E C wf).resultIdx? u idx = some (ix2 n j) ↔ segOf idx (fst2 u) = some n ∧ snd2 u = j := by
  have hu1 : (u 1).val < C := idx2_lt1 u
  have hn := n.isLt
  have hj := j.isLt
  rw [segOf_eq_some_iff]
  unfold ScatterDims.resultIdx?
  split
  · rename_i h
    rw [Option.some.injEq]
    constructor
    · intro heq
      have e0 : ((segDims N E C wf).start u idx 0 + (segDims N E C wf).window u 0).toNat = n.val :=
        congrArg (fun f : (⟨2, ![N, C]⟩ : Shape).Idx => (f 0).val) heq
      have e1 : ((segDims N E C wf).start u idx 1 + (segDims N E C wf).window u 1).toNat = j.val :=
        congrArg (fun f : (⟨2, ![N, C]⟩ : Shape).Idx => (f 1).val) heq
      have h0 := h 0
      rw [seg_start0, seg_window0] at e0 h0
      rw [seg_start1, seg_window1] at e1
      refine ⟨by omega, Fin.ext ?_⟩
      show (u 1).val = j.val
      omega
    · rintro ⟨e0, e1⟩
      have e1v : (u 1).val = j.val := congrArg Fin.val e1
      funext a; refine Fin.ext ?_
      match a with
      | ⟨0, _⟩ =>
        show ((segDims N E C wf).start u idx 0 + (segDims N E C wf).window u 0).toNat = n.val
        rw [seg_start0, seg_window0]; omega
      | ⟨1, _⟩ =>
        show ((segDims N E C wf).start u idx 1 + (segDims N E C wf).window u 1).toNat = j.val
        rw [seg_start1, seg_window1]; omega
  · rename_i h
    constructor
    · intro h2; exact absurd h2 (by simp)
    · rintro ⟨e0, _⟩
      refine absurd (fun a => ?_) h
      match a with
      | ⟨0, _⟩ =>
        show 0 ≤ (segDims N E C wf).start u idx 0 + (segDims N E C wf).window u 0 ∧
          (segDims N E C wf).start u idx 0 + (segDims N E C wf).window u 0 < (N : Int)
        rw [seg_start0, seg_window0]; omega
      | ⟨1, _⟩ =>
        show 0 ≤ (segDims N E C wf).start u idx 1 + (segDims N E C wf).window u 1 ∧
          (segDims N E C wf).start u idx 1 + (segDims N E C wf).window u 1 < (C : Int)
        rw [seg_start1, seg_window1]; omega

/-- THE SEGMENT SUM READ AT `(n, j)`: the operand's entry plus the updates `(e, j)` of the edges `e` added to row
    `n`. The updates that land at `(n, j)` are in bijection with those edges, by `(e, j) ↦ e`. -/
theorem scatterAdd_seg_apply (x : (⟨2, ![N, C]⟩ : Shape).Idx → EReal) (upd : (⟨2, ![E, C]⟩ : Shape).Idx → EReal)
    (n : Fin N) (j : Fin C) :
    Ideal.hostScatterAdd (segDims N E C wf) x idx upd (ix2 n j) =
      x (ix2 n j) + ∑ e ∈ Finset.univ.filter (fun e : Fin E => segOf (N := N) idx e = some n), upd (ix2 e j) := by
  unfold Ideal.hostScatterAdd
  congr 1
  refine Finset.sum_nbij' (fun u => fst2 u) (fun e => ix2 e j) ?_ ?_ ?_ ?_ ?_
  · intro u hu
    rw [Finset.mem_filter] at hu ⊢
    exact ⟨Finset.mem_univ _, ((seg_resultIdx?_eq_some_iff wf idx u n j).mp hu.2).1⟩
  · intro e he
    rw [Finset.mem_filter] at he ⊢
    exact ⟨Finset.mem_univ _, (seg_resultIdx?_eq_some_iff wf idx (ix2 e j) n j).mpr ⟨he.2, rfl⟩⟩
  · intro u hu
    rw [Finset.mem_filter] at hu
    have h1 : snd2 u = j := ((seg_resultIdx?_eq_some_iff wf idx u n j).mp hu.2).2
    rw [← h1]; exact (eq_ix2 u).symm
  · intro e _; rfl
  · intro u hu
    rw [Finset.mem_filter] at hu
    have h1 : snd2 u = j := ((seg_resultIdx?_eq_some_iff wf idx u n j).mp hu.2).2
    rw [← h1]; exact congrArg upd (eq_ix2 u)

/-- The segment sum at an arbitrary index `i = (n, j)` of the operand. -/
theorem scatterAdd_seg_apply_idx (x : (⟨2, ![N, C]⟩ : Shape).Idx → EReal) (upd : (⟨2, ![E, C]⟩ : Shape).Idx → EReal)
    (i : (⟨2, ![N, C]⟩ : Shape).Idx) :
    Ideal.hostScatterAdd (segDims N E C wf) x idx upd i =
      x i + ∑ e ∈ Finset.univ.filter (fun e : Fin E => segOf (N := N) idx e = some (fst2 i)), upd (ix2 e (snd2 i)) := by
  have hi : i = ix2 (fst2 i) (snd2 i) := eq_ix2 i
  conv_lhs => rw [hi]
  rw [scatterAdd_seg_apply]
  exact congrArg (fun t => x t + _) hi.symm

/-- The same reading of the host operation `Host.scatterAdd` at the ideal instance, whatever the float format. -/
theorem host_scatterAdd_seg_apply {φ : FTy} (x : FVec Ideal ⟨2, ![N, C]⟩ φ) (upd : FVec Ideal ⟨2, ![E, C]⟩ φ)
    (n : Fin N) (j : Fin C) :
    Host.scatterAdd (F := Ideal) (segDims N E C wf) x idx upd (ix2 n j) =
      x (ix2 n j) + ∑ e ∈ Finset.univ.filter (fun e : Fin E => segOf (N := N) idx e = some n), upd (ix2 e j) :=
  scatterAdd_seg_apply wf idx x upd n j

/-- `Host.scatterAdd` at the ideal instance, at an arbitrary index of the operand. -/
theorem host_scatterAdd_seg_apply_idx {φ : FTy} (x : FVec Ideal ⟨2, ![N, C]⟩ φ) (upd : FVec Ideal ⟨2, ![E, C]⟩ φ)
    (i : (⟨2, ![N, C]⟩ : Shape).Idx) :
    Host.scatterAdd (F := Ideal) (segDims N E C wf) x idx upd i =
      x i + ∑ e ∈ Finset.univ.filter (fun e : Fin E => segOf (N := N) idx e = some (fst2 i)), upd (ix2 e (snd2 i)) :=
  scatterAdd_seg_apply_idx wf idx x upd i

end Seg

/-! ## The segment sum into a rank-1 operand -/

section Seg1

/-- The dimension numbers of the segment sum into `[N]`: scatter indices `[E, 1]`, updates `[E]`; the operand's one
    axis is the indexed one (an inserted window axis) and the updates have no window axis. Their conditions `wf` are
    decided on literal shapes. -/
abbrev segDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (u : (⟨1, ![E]⟩ : Shape).Idx)

/-- The window of update `e` starts at the start index `idx[e, 0]`, read signed. -/
theorem seg1_start0 : (segDims1 N E wf).start u idx 0 = (idx (ix2 (fst1 u) (0 : Fin 1))).toInt := by
  unfold ScatterDims.start
  rw [dif_pos (show (0 : Fin 1) ∈ (segDims1 N E wf).scatterDimsToOperandDims from List.mem_singleton.mpr rfl)]
  have hsi : (segDims1 N E wf).siIdx u ⟨List.idxOf (0 : Fin 1) (segDims1 N E wf).scatterDimsToOperandDims,
      List.idxOf_lt_length_iff.2 (List.mem_singleton.mpr rfl)⟩ = ix2 (fst1 u) (0 : Fin 1) := by
    funext b; refine Fin.ext ?_
    match b with
    | ⟨0, _⟩ => rfl
    | ⟨1, _⟩ => rfl
  rw [hsi]

/-- The operand's axis is an inserted window axis: no window coordinate there. -/
theorem seg1_window0 : (segDims1 N E wf).window u 0 = 0 := by
  unfold ScatterDims.window
  rw [dif_neg (show (0 : Fin 1) ∉ (segDims1 N E wf).sKept from fun h =>
    (List.mem_filter.mp h).2 |> fun h2 => absurd (List.mem_singleton.mpr rfl) (of_decide_eq_true h2))]

/-- WHERE AN UPDATE LANDS: update `e` lands at `n` exactly when edge `e` is added to row `n`. -/
theorem seg1_resultIdx?_eq_some_iff (n : Fin N) :
    (segDims1 N E wf).resultIdx? u idx = some (ix1 n) ↔ segOf idx (fst1 u) = some n := by
  have hn := n.isLt
  rw [segOf_eq_some_iff]
  unfold ScatterDims.resultIdx?
  split
  · rename_i h
    rw [Option.some.injEq]
    constructor
    · intro heq
      have e0 : ((segDims1 N E wf).start u idx 0 + (segDims1 N E wf).window u 0).toNat = n.val :=
        congrArg (fun f : (⟨1, ![N]⟩ : Shape).Idx => (f 0).val) heq
      have h0 := h 0
      rw [seg1_start0, seg1_window0] at e0 h0
      omega
    · intro e0
      funext a; refine Fin.ext ?_
      match a with
      | ⟨0, _⟩ =>
        show ((segDims1 N E wf).start u idx 0 + (segDims1 N E wf).window u 0).toNat = n.val
        rw [seg1_start0, seg1_window0]; omega
  · rename_i h
    constructor
    · intro h2; exact absurd h2 (by simp)
    · intro e0
      refine absurd (fun a => ?_) h
      match a with
      | ⟨0, _⟩ =>
        show 0 ≤ (segDims1 N E wf).start u idx 0 + (segDims1 N E wf).window u 0 ∧
          (segDims1 N E wf).start u idx 0 + (segDims1 N E wf).window u 0 < (N : Int)
        rw [seg1_start0, seg1_window0]; omega

/-- THE RANK-1 SEGMENT SUM READ AT `n`: the operand's entry plus the updates of the edges added to row `n` — the
    same set of edges as for a rank-2 operand of any width. -/
theorem scatterAdd_seg1_apply (x : (⟨1, ![N]⟩ : Shape).Idx → EReal) (upd : (⟨1, ![E]⟩ : Shape).Idx → EReal) (n : Fin N) :
    Ideal.hostScatterAdd (segDims1 N E wf) x idx upd (ix1 n) =
      x (ix1 n) + ∑ e ∈ Finset.univ.filter (fun e : Fin E => segOf (N := N) idx e = some n), upd (ix1 e) := by
  unfold Ideal.hostScatterAdd
  congr 1
  refine Finset.sum_nbij' (fun u => fst1 u) (fun e => ix1 e) ?_ ?_ ?_ ?_ ?_
  · intro u hu
    rw [Finset.mem_filter] at hu ⊢
    exact ⟨Finset.mem_univ _, (seg1_resultIdx?_eq_some_iff wf idx u n).mp hu.2⟩
  · intro e he
    rw [Finset.mem_filter] at he ⊢
    exact ⟨Finset.mem_univ _, (seg1_resultIdx?_eq_some_iff wf idx (ix1 e) n).mpr he.2⟩
  · intro u _; exact (eq_ix1 u).symm
  · intro e _; rfl
  · intro u _; exact congrArg upd (eq_ix1 u)

/-- The rank-1 segment sum at an arbitrary index of the operand. -/
theorem scatterAdd_seg1_apply_idx (x : (⟨1, ![N]⟩ : Shape).Idx → EReal) (upd : (⟨1, ![E]⟩ : Shape).Idx → EReal)
    (i : (⟨1, ![N]⟩ : Shape).Idx) :
    Ideal.hostScatterAdd (segDims1 N E wf) x idx upd i =
      x i + ∑ e ∈ Finset.univ.filter (fun e : Fin E => segOf (N := N) idx e = some (fst1 i)), upd (ix1 e) := by
  have hi : i = ix1 (fst1 i) := eq_ix1 i
  conv_lhs => rw [hi]
  rw [scatterAdd_seg1_apply]
  exact congrArg (fun t => x t + _) hi.symm

/-- The same reading of the host operation `Host.scatterAdd` at the ideal instance, whatever the float format. -/
theorem host_scatterAdd_seg1_apply {φ : FTy} (x : FVec Ideal ⟨1, ![N]⟩ φ) (upd : FVec Ideal ⟨1, ![E]⟩ φ) (n : Fin N) :
    Host.scatterAdd (F := Ideal) (segDims1 N E wf) x idx upd (ix1 n) =
      x (ix1 n) + ∑ e ∈ Finset.univ.filter (fun e : Fin E => segOf (N := N) idx e = some n), upd (ix1 e) :=
  scatterAdd_seg1_apply wf idx x upd n

/-- `Host.scatterAdd` at the ideal instance, rank 1, at an arbitrary index of the operand. -/
theorem host_scatterAdd_seg1_apply_idx {φ : FTy} (x : FVec Ideal ⟨1, ![N]⟩ φ) (upd : FVec Ideal ⟨1, ![E]⟩ φ)
    (i : (⟨1, ![N]⟩ : Shape).Idx) :
    Host.scatterAdd (F := Ideal) (segDims1 N E wf) x idx upd i =
      x i + ∑ e ∈ Finset.univ.filter (fun e : Fin E => segOf (N := N) idx e = some (fst1 i)), upd (ix1 e) :=
  scatterAdd_seg1_apply_idx wf idx x upd i

end Seg1

end Cert.LibSegment

end
-- ==== Proof.LibColumn.lean ====
/-
A column read through layout operations.

A column of `a` entries is stored either as a vector of shape `[a]` or as a matrix of shape
`[a, 1]`.  Reshaping between the two keeps entry `p` at row `p` (the only column being
column `0`), and stretching the `[a, 1]` matrix to `[a, b]` repeats entry `p` along row
`p`: the result at `(p, q)` is the column at `(p, 0)`.  The same holds when the stretch or the
added unit axis is written as a broadcast along named axes, and a vector of `b` entries placed
along the second axis of a `[1, b]` matrix keeps entry `q` at `(0, q)`.
-/
import Idealize.ShloMosaic.Lib.ValueLayout
import Idealize.ShloMosaic.Lib.Pipeline.Value
import Idealize.ShloMosaic.Lib.ValueIdx

namespace Cert.LibColumn

open Idealize.ShloMosaic Idealize.ShloMosaic.ValueIdx

variable {α : Type}

/-! ### Reshaping between a vector and a one-column matrix -/

/-- An `[a]` vector reshaped to `[a, 1]` reads, at `(p, u)`, the vector at `p`, whatever the
    unit coordinate `u`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` matrix reshaped to `[a]` reads, at `p`, the matrix at `(p, 0)`. -/
theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-! ### Stretching a one-column matrix along its rows -/

/-- An `[a, 1]` matrix stretched to `[a, b]` reads, at `(p, q)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The same at an index not yet split into coordinates: the result at `j` is the column at
    `(j 0, 0)`. -/
theorem broadcastTo_a1_ab_apply' {a b : ℕ} (v : (⟨2, ![a, 1]⟩ : Shape).Idx → α)
    (h : (⟨2, ![a, 1]⟩ : Shape).Broadcasts ⟨2, ![a, b]⟩) (j : (⟨2, ![a, b]⟩ : Shape).Idx) :
    broadcastTo ⟨2, ![a, b]⟩ v h j = v (ix2 (j 0) (0 : Fin 1)) := by
  obtain ⟨p, q, rfl⟩ : ∃ (p : Fin a) (q : Fin b), j = ix2 p q := ⟨j 0, j 1, eq_ix2 j⟩
  exact broadcastTo_a1_ab_apply v h p q

/-! ### The same operations written as broadcasts along named axes -/

/-- An `[a]` vector broadcast into `[a, 1]` along axis `0` reads, at `(p, u)`, the vector at
    `p`. -/
theorem broadcastInDim_a_a1_apply {a : ℕ}
    (h : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An `[a, 1]` matrix broadcast into `[a, b]` along axes `0, 1` reads, at `(p, q)`, the column
    at `(p, 0)`. -/
theorem broadcastInDim_a1_ab_apply {a b : ℕ}
    (h : (⟨2, ![a, 1]⟩ : Shape).BroadcastsInDim ⟨2, ![a, b]⟩ ![0, 1])
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

/-- A `[b]` vector broadcast into `[1, b]` along axis `1` reads, at `(u, q)`, the vector at
    `q`. -/
theorem broadcastInDim_b_1b_apply {b : ℕ}
    (h : (⟨1, ![b]⟩ : Shape).BroadcastsInDim ⟨2, ![1, b]⟩ ![1])
    (x : (⟨1, ![b]⟩ : Shape).Idx → α) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

end Cert.LibColumn
-- ==== Proof.Region0Value.lean ====
/-
  REGION 0 READ AS TWO WHOLE ARRAYS.

  The region runs a ten-point grid. Point `t` loads rows `5000·t … 5000·t + 4999` of `x` (50000 × 64), all of `W`
  (64 × 64) and the same rows of a column `d` (50000 × 1), and stores into the same rows of two outputs the block
  product `x_blk · W` and that product with row `p` scaled by `d_blk[p]`. At the ideal values narrowing to bf16 is
  the identity and the product accumulates exactly from zero, so after the region the first output is `x · W` and the
  second `d · (x · W)`, index by index, whatever the outputs held before: the ten row blocks tile the arrays.

  In order: the body's two results at an index of a block (`support_at`, `scaled_at`); where each window's block sits
  in its array (`idx_facts`, `rowAt`, `x_block`, `w_block`, `d_block`, `out3_place`, `out4_place`); the two
  whole-array functions (`support`, `scaled`) and one point's blocks of them (`support_block`, `scaled_block`);
  what each point writes back (`flushed_support`, `flushed_scaled`); the blocks tile (`covered3`, `covered4`); the
  arrays after the region (`support_final`, `scaled_final`, and at an index `support_final_apply`,
  `scaled_final_apply`).
-/
import proofs.«177149_j19361712570525_2_alg».proof.Proof.Gen.KernelIdeal.Frame
import proofs.«177149_j19361712570525_2_alg».proof.Proof.LibSegment
import proofs.«177149_j19361712570525_2_alg».proof.Proof.LibColumn
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0Value

open Cert.KernelIdeal Cert.KernelIdeal.Gen Idealize.ShloMosaic Idealize.ShloMosaic.ValueIdx Cert.LibSegment
open Idealize.ShloMosaic.TcCoe Idealize.SL.Sem
open Idealize.ShloMosaic.Pipeline (Dat)

/-! ## The body's two results at an index -/

/-- The block product contracts ONE axis, of extent 64: its contraction index is one coordinate `k : Fin 64`. -/
abbrev kIdx : dot_S5000x64_S64x64_S5000x64_1_0_0_1_n_n.contr.Idx ≃ Fin 64 :=
  contrEquiv1 dot_S5000x64_S64x64_S5000x64_1_0_0_1_n_n 64 rfl rfl

/-- The left operand's row coordinate is the output's row. -/
theorem lhs_row (i : S5000x64.Idx) (r : dot_S5000x64_S64x64_S5000x64_1_0_0_1_n_n.contr.Idx) :
    (dot_S5000x64_S64x64_S5000x64_1_0_0_1_n_n.lhsIdx i r 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- The left operand's column coordinate is the contraction coordinate. -/
theorem lhs_col (i : S5000x64.Idx) (r : dot_S5000x64_S64x64_S5000x64_1_0_0_1_n_n.contr.Idx) :
    (dot_S5000x64_S64x64_S5000x64_1_0_0_1_n_n.lhsIdx i r 1).val = (r ⟨0, by decide⟩).val :=
  dot_S5000x64_S64x64_S5000x64_1_0_0_1_n_n.lhsIdx_val_of_single rfl i r

/-- The right operand's row coordinate is the contraction coordinate. -/
theorem rhs_row (i : S5000x64.Idx) (r : dot_S5000x64_S64x64_S5000x64_1_0_0_1_n_n.contr.Idx) :
    (dot_S5000x64_S64x64_S5000x64_1_0_0_1_n_n.rhsIdx i r 0).val = (r ⟨0, by decide⟩).val :=
  dot_S5000x64_S64x64_S5000x64_1_0_0_1_n_n.rhsIdx_val_of_single rfl i r

/-- The right operand's column coordinate is the output's column. -/
theorem rhs_col (i : S5000x64.Idx) (r : dot_S5000x64_S64x64_S5000x64_1_0_0_1_n_n.contr.Idx) :
    (dot_S5000x64_S64x64_S5000x64_1_0_0_1_n_n.rhsIdx i r 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The block product at `(p, q)`: row `p` of the `x` block against column `q` of `W`,
    `∑ k, x[p, k] · W[k, q]` — both narrowings to bf16 are the identity on ideal values and the
    accumulator starts from the zero splat. -/
theorem support_at (x0 : Vec Ideal S5000x64 .f32) (x1 : Vec Ideal S64x64 .f32) (p : Fin 5000) (q : Fin 64) :
    k0_pay1 x0 x1 (ix2 p q) = ∑ k : Fin 64, x0 (ix2 p k) * x1 (ix2 k q) := by
  unfold k0_pay1
  simp only [matmul]
  rw [Ideal.matmul_constant_zero_apply, ← Equiv.sum_comp kIdx.symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) (kIdx.symm k) = ix2 p k :=
    funext fun a => Fin.ext (by
      match a with
      | ⟨0, _⟩ => exact lhs_row _ _
      | ⟨1, _⟩ => exact (lhs_col _ _).trans hk)
  have er : dot_S5000x64_S64x64_S5000x64_1_0_0_1_n_n.rhsIdx (ix2 p q) (kIdx.symm k) = ix2 k q :=
    funext fun a => Fin.ext (by
      match a with
      | ⟨0, _⟩ => exact (rhs_row _ _).trans hk
      | ⟨1, _⟩ => exact rhs_col _ _)
  rw [el, er]
  rfl

/-- The scaled block product at `(p, q)`: the column block's entry of row `p` — repeated along the row by the
    stretch `[5000, 1] → [5000, 64]` — times the block product there. -/
theorem scaled_at (x0 : Vec Ideal S5000x64 .f32) (x1 : Vec Ideal S64x64 .f32) (x2 : Vec Ideal S5000x1 .f32)
    (p : Fin 5000) (q : Fin 64) :
    k0_pay2 x0 x1 x2 (ix2 p q) = x2 (ix2 p (0 : Fin 1)) * k0_pay1 x0 x1 (ix2 p q) := by
  unfold k0_pay2
  rw [mulf_apply, shapeCast_self, Cert.LibColumn.broadcastTo_a1_ab_apply]

/-! ## Where a block sits in its array -/

variable (V : (c : Dev nD) → (b : Ref sig .tc) → Buf (Elt Ideal) ((c : Thread nD τ).loc b))

theorem hz : (![0, 0] : Fin 2 → Nat) = fun _ => 0 := funext fun a => by fin_cases a <;> rfl

/-- The grid has ten points. -/
theorem ten_points : cfg0.N = 10 := rfl

/-- The printed index maps, decided over the grid: at point `t` the blocks of `x`, of the column and of both
    outputs are block `t` along the rows and block `0` along the columns; the block of `W` is block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `p` of the 5000-row block of point `t` is row `5000·t + p` of the 50000-row array. -/
def rowAt (t : Fin cfg0.N) (p : Fin 5000) : Fin 50000 :=
  ⟨t.val * 5000 + p.val, by have h : t.val < 10 := t.isLt; have := p.isLt; omega⟩

/-- The `x` block of point `t` at `(p, k)` is `x` at `(5000·t + p, k)`. -/
theorem x_block (c : Dev nD) (t : Fin cfg0.N) (p : Fin 5000) (k : Fin 64) :
    (iblk0 V c 0 t : Vec Ideal S5000x64 .f32) (ix2 p k) = V c main_arg0 (ix2 (rowAt t p) k) := by
  obtain ⟨e0, e1, -⟩ := idx_facts t
  show V c main_arg0 (((cfg0.win 0).blk t).view.emb (ix2 p k)) = _
  congr 1
  funext a; apply Fin.ext
  match a with
  | ⟨0, _⟩ => show win0_0.index t (0 : Fin 2) * 5000 + 1 * p.val = t.val * 5000 + p.val; rw [e0]; omega
  | ⟨1, _⟩ => show win0_0.index t (1 : Fin 2) * 64 + 1 * k.val = k.val; rw [e1]; omega

/-- The `W` block of every point is all of `W`. -/
theorem w_block (c : Dev nD) (t : Fin cfg0.N) (k q : Fin 64) :
    (iblk0 V c 1 t : Vec Ideal S64x64 .f32) (ix2 k q) = V c main_arg2 (ix2 k q) := by
  obtain ⟨-, -, e0, e1, -⟩ := idx_facts t
  show V c main_arg2 (((cfg0.win 1).blk t).view.emb (ix2 k q)) = _
  congr 1
  funext a; apply Fin.ext
  match a with
  | ⟨0, _⟩ => show win0_1.index t (0 : Fin 2) * 64 + 1 * k.val = k.val; rw [e0]; omega
  | ⟨1, _⟩ => show win0_1.index t (1 : Fin 2) * 64 + 1 * q.val = q.val; rw [e1]; omega

/-- The column block of point `t` at `(p, 0)` is the column at `(5000·t + p, 0)`. -/
theorem d_block (c : Dev nD) (t : Fin cfg0.N) (p : Fin 5000) :
    (iblk0 V c 2 t : Vec Ideal S5000x1 .f32) (ix2 p (0 : Fin 1)) = V c main_v13 (ix2 (rowAt t p) (0 : Fin 1)) := by
  obtain ⟨-, -, -, -, e0, e1, -⟩ := idx_facts t
  show V c main_v13 (((cfg0.win 2).blk t).view.emb (ix2 p (0 : Fin 1))) = _
  congr 1
  funext a; apply Fin.ext
  match a with
  | ⟨0, _⟩ => show win0_2.index t (0 : Fin 2) * 5000 + 1 * p.val = t.val * 5000 + p.val; rw [e0]; omega
  | ⟨1, _⟩ => show win0_2.index t (1 : Fin 2) * 1 + 1 * 0 = 0; rw [e1]

/-- Element `(p, q)` of the first output's block of point `t` is written to `(5000·t + p, q)`. -/
theorem out3_place (t : Fin cfg0.N) (p : Fin 5000) (q : Fin 64) :
    (((cfg0.win 3).blk t).view.emb (ix2 p q) : S50000x64.Idx) = ix2 (rowAt t p) q := by
  obtain ⟨-, -, -, -, -, -, e0, e1, -⟩ := idx_facts t
  funext a; apply Fin.ext
  match a with
  | ⟨0, _⟩ => show win0_3.index t (0 : Fin 2) * 5000 + 1 * p.val = t.val * 5000 + p.val; rw [e0]; omega
  | ⟨1, _⟩ => show win0_3.index t (1 : Fin 2) * 64 + 1 * q.val = q.val; rw [e1]; omega

/-- Element `(p, q)` of the second output's block of point `t` is written to `(5000·t + p, q)`. -/
theorem out4_place (t : Fin cfg0.N) (p : Fin 5000) (q : Fin 64) :
    (((cfg0.win 4).blk t).view.emb (ix2 p q) : S50000x64.Idx) = ix2 (rowAt t p) q := by
  obtain ⟨-, -, -, -, -, -, -, -, e0, e1⟩ := idx_facts t
  funext a; apply Fin.ext
  match a with
  | ⟨0, _⟩ => show win0_4.index t (0 : Fin 2) * 5000 + 1 * p.val = t.val * 5000 + p.val; rw [e0]; omega
  | ⟨1, _⟩ => show win0_4.index t (1 : Fin 2) * 64 + 1 * q.val = q.val; rw [e1]; omega

/-! ## The two results as whole arrays -/

/-- The array `x` (50000 × 64) as the region finds it. -/
abbrev xArr (c : Dev nD) : Vec Ideal S50000x64 .f32 := V c main_arg0
/-- The array `W` (64 × 64) as the region finds it. -/
abbrev wArr (c : Dev nD) : Vec Ideal S64x64 .f32 := V c main_arg2
/-- The column `d` (50000 × 1) as the region finds it. -/
abbrev dArr (c : Dev nD) : Vec Ideal S50000x1 .f32 := V c main_v13

/-- The first result as a whole array: `(x · W)[r, q] = ∑ k, x[r, k] · W[k, q]`. -/
abbrev support (c : Dev nD) : Vec Ideal S50000x64 .f32 :=
  fun i => ∑ k : Fin 64, xArr V c (ix2 (fst2 i) k) * wArr V c (ix2 k (snd2 i))

/-- The second result as a whole array: row `r` of the first scaled by the column's entry `d[r]`. -/
abbrev scaled (c : Dev nD) : Vec Ideal S50000x64 .f32 :=
  fun i => dArr V c (ix2 (fst2 i) (0 : Fin 1)) * ∑ k : Fin 64, xArr V c (ix2 (fst2 i) k) * wArr V c (ix2 k (snd2 i))

/-! ## One point's blocks, over blocks of the literal shapes -/

/-- If an `x` block holds rows `ρ p` of an array `A0` and a `W` block holds all of `A1`, their product block at
    `(p, q)` is `∑ k, A0[ρ p, k] · A1[k, q]`. -/
theorem support_block (x0 : Vec Ideal S5000x64 .f32) (x1 : Vec Ideal S64x64 .f32)
    (A0 : S50000x64.Idx → Elt Ideal .f32) (A1 : S64x64.Idx → Elt Ideal .f32) (ρ : Fin 5000 → Fin 50000)
    (h0 : ∀ p k, x0 (ix2 p k) = A0 (ix2 (ρ p) k)) (h1 : ∀ k q, x1 (ix2 k q) = A1 (ix2 k q))
    (p : Fin 5000) (q : Fin 64) :
    k0_pay1 x0 x1 (ix2 p q) = ∑ k : Fin 64, A0 (ix2 (ρ p) k) * A1 (ix2 k q) := by
  rw [support_at]
  exact Finset.sum_congr rfl fun k _ => by rw [h0, h1]

/-- With a column block holding rows `ρ p` of a column `A2` as well, the scaled product block at `(p, q)` is
    `A2[ρ p, 0] · ∑ k, A0[ρ p, k] · A1[k, q]`. -/
theorem scaled_block (x0 : Vec Ideal S5000x64 .f32) (x1 : Vec Ideal S64x64 .f32) (x2 : Vec Ideal S5000x1 .f32)
    (A0 : S50000x64.Idx → Elt Ideal .f32) (A1 : S64x64.Idx → Elt Ideal .f32) (A2 : S50000x1.Idx → Elt Ideal .f32)
    (ρ : Fin 5000 → Fin 50000)
    (h0 : ∀ p k, x0 (ix2 p k) = A0 (ix2 (ρ p) k)) (h1 : ∀ k q, x1 (ix2 k q) = A1 (ix2 k q))
    (h2 : ∀ p, x2 (ix2 p (0 : Fin 1)) = A2 (ix2 (ρ p) (0 : Fin 1)))
    (p : Fin 5000) (q : Fin 64) :
    k0_pay2 x0 x1 x2 (ix2 p q) = A2 (ix2 (ρ p) (0 : Fin 1)) * ∑ k : Fin 64, A0 (ix2 (ρ p) k) * A1 (ix2 k q) := by
  rw [scaled_at, support_block x0 x1 A0 A1 ρ h0 h1, h2]

/-! ## What each point writes back -/

/-- Two blocks of the literal shape `[5000, 64]` that agree at every `(p, q)` are equal. -/
theorem block_ext (X Y : Vec Ideal S5000x64 .f32) (h : ∀ (p : Fin 5000) (q : Fin 64), X (ix2 p q) = Y (ix2 p q)) : X = Y :=
  funext fun j => by rw [eq_ix2 j]; exact h _ _

/-- WHAT POINT `t` WRITES BACK to the first output is block `t` of `x · W`: the body's one store covers its staging
    buffer with the block product of the loaded blocks, which are rows `5000·t …` of `x` and all of `W`, and the
    write-back puts element `(p, q)` at `(5000·t + p, q)`. -/
theorem flushed_support (c : Dev nD) (t : Fin cfg0.N) :
    (dat0 (F := Ideal) V c).flushed 3 t = ((cfg0.win 3).blk t).view.read (Elt Ideal) (support V c) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz]
  refine block_ext _ _ fun p q => ?_
  show k0_pay1 (iblk0 V c 0 t) (iblk0 V c 1 t) (ix2 p q) = support V c (((cfg0.win 3).blk t).view.emb (ix2 p q) : S50000x64.Idx)
  rw [support_block _ _ (xArr V c) (wArr V c) (rowAt t) (x_block V c t) (w_block V c t), out3_place]

/-- WHAT POINT `t` WRITES BACK to the second output is block `t` of `d · (x · W)`. -/
theorem flushed_scaled (c : Dev nD) (t : Fin cfg0.N) :
    (dat0 (F := Ideal) V c).flushed 4 t = ((cfg0.win 4).blk t).view.read (Elt Ideal) (scaled V c) := by
  show (cfg0.win 4).cut (grid0.coords t) ((dat0 V c).after 4 t) = _
  rw [after0_4]
  unfold out0_4
  rw [View.canon_unit_zero hz]
  simp only [View.ld_unit_zero (S := S5000x64) hz, View.ld_unit_zero (S := S64x64) hz, View.ld_unit_zero (S := S5000x1) hz]
  refine block_ext _ _ fun p q => ?_
  show k0_pay2 (iblk0 V c 0 t) (iblk0 V c 1 t) (iblk0 V c 2 t) (ix2 p q) = scaled V c (((cfg0.win 4).blk t).view.emb (ix2 p q) : S50000x64.Idx)
  rw [scaled_block _ _ _ (xArr V c) (wArr V c) (dArr V c) (rowAt t) (x_block V c t) (w_block V c t) (d_block V c t), out4_place]

/-! ## The blocks tile the arrays -/

/-- An index of the first output's array is in point `t`'s block iff each coordinate is in the block's range. -/
theorem mem_block3 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v14_0).slice (win0_3.rect t)).set ↔ _
  rw [View.set_slice_whole, Rect.mem_set_unit]
  exact Iff.rfl

/-- Likewise for the second output's array. -/
theorem mem_block4 (t : Fin cfg0.N) (i : S50000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v14_1).slice (win0_4.rect t)).set ↔ _
  rw [View.set_slice_whole, Rect.mem_set_unit]
  exact Iff.rfl

/-- Row `r` of the first output is in the block of point `r / 5000`, which writes back: the ten blocks tile the array. -/
theorem covered3 (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have ht : (i 0).val / 5000 < cfg0.N := by show _ < 10; omega
  obtain ⟨-, -, -, -, -, -, e0, e1, -⟩ := idx_facts ⟨(i 0).val / 5000, ht⟩
  have e0' : win0_3.index ⟨(i 0).val / 5000, ht⟩ (0 : Fin 2) = (i 0).val / 5000 := e0
  refine ⟨⟨(i 0).val / 5000, ht⟩, flush0_3 _, ?_⟩
  rw [mem_block3]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e0']; omega
  | ⟨1, _⟩ =>
    show win0_3.index ⟨(i 0).val / 5000, ht⟩ (1 : Fin 2) * 64 ≤ (i 1).val ∧ (i 1).val < win0_3.index ⟨(i 0).val / 5000, ht⟩ (1 : Fin 2) * 64 + 64
    rw [e1]; omega

/-- Likewise for the second output. -/
theorem covered4 (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  have ht : (i 0).val / 5000 < cfg0.N := by show _ < 10; omega
  obtain ⟨-, -, -, -, -, -, -, -, e0, e1⟩ := idx_facts ⟨(i 0).val / 5000, ht⟩
  have e0' : win0_4.index ⟨(i 0).val / 5000, ht⟩ (0 : Fin 2) = (i 0).val / 5000 := e0
  refine ⟨⟨(i 0).val / 5000, ht⟩, flush0_4 _, ?_⟩
  rw [mem_block4]
  intro a
  match a with
  | ⟨0, _⟩ =>
    show win0_4.index ⟨(i 0).val / 5000, ht⟩ (0 : Fin 2) * 5000 ≤ (i 0).val ∧ (i 0).val < win0_4.index ⟨(i 0).val / 5000, ht⟩ (0 : Fin 2) * 5000 + 5000
    rw [e0']; omega
  | ⟨1, _⟩ =>
    show win0_4.index ⟨(i 0).val / 5000, ht⟩ (1 : Fin 2) * 64 ≤ (i 1).val ∧ (i 1).val < win0_4.index ⟨(i 0).val / 5000, ht⟩ (1 : Fin 2) * 64 + 64
    rw [e1]; omega

/-! ## The two output arrays after the region -/

/-- THE FIRST OUTPUT after the region is `x · W`: at `(r, q)`, `∑ k, x[r, k] · W[k, q]` of the arrays as the region
    found them. -/
theorem support_final (c : Dev nD) : (dat0 (F := Ideal) V c).arrAt 3 cfg0.N
    = (fun i : S50000x64.Idx => ∑ k : Fin 64, xArr V c (ix2 (fst2 i) k) * wArr V c (ix2 k (snd2 i))) :=
  (dat0 V c).arrAt_eq_of_cover 3 (support V c) (fun t _ => flushed_support V c t) covered3

/-- THE SECOND OUTPUT after the region is `d · (x · W)`: at `(r, q)`, `d[r, 0] · ∑ k, x[r, k] · W[k, q]`. -/
theorem scaled_final (c : Dev nD) : (dat0 (F := Ideal) V c).arrAt 4 cfg0.N
    = (fun i : S50000x64.Idx => dArr V c (ix2 (fst2 i) (0 : Fin 1)) * ∑ k : Fin 64, xArr V c (ix2 (fst2 i) k) * wArr V c (ix2 k (snd2 i))) :=
  (dat0 V c).arrAt_eq_of_cover 4 (scaled V c) (fun t _ => flushed_scaled V c t) covered4

/-- The first output after the region at `(r, q)`: `∑ k, x[r, k] · W[k, q]`. -/
theorem support_final_apply (c : Dev nD) (r : Fin 50000) (q : Fin 64) :
    ((dat0 (F := Ideal) V c).arrAt 3 cfg0.N : Vec Ideal S50000x64 .f32) (ix2 r q)
      = ∑ k : Fin 64, xArr V c (ix2 r k) * wArr V c (ix2 k q) :=
  congrFun (support_final V c) (ix2 r q)

/-- The second output after the region at `(r, q)`: `d[r, 0] · ∑ k, x[r, k] · W[k, q]`. -/
theorem scaled_final_apply (c : Dev nD) (r : Fin 50000) (q : Fin 64) :
    ((dat0 (F := Ideal) V c).arrAt 4 cfg0.N : Vec Ideal S50000x64 .f32) (ix2 r q)
      = dArr V c (ix2 r (0 : Fin 1)) * ∑ k : Fin 64, xArr V c (ix2 r k) * wArr V c (ix2 k q) :=
  congrFun (scaled_final V c) (ix2 r q)

end Cert.KernelIdeal.Region0Value

end
-- ==== Proof.Region1Value.lean ====
/-
  THE SECOND REGION'S OUTPUT ARRAY AS ONE FUNCTION OF ITS INPUT ARRAYS.

  The region walks a grid of 10 points. At point `t` it reads rows `5000 t … 5000 t + 4999` of two `[50000, 64]`
  arrays `g` and `s` and of a `[50000, 1]` column `d`, reads the whole `[64]` vector `b`, and writes the same rows of
  the `[50000, 64]` output: entry `(r, j)` becomes `(d r · g (r, j) + (d r · d r) · s (r, j)) + b j`, the column
  stretched along each row and the vector repeated down the rows. The ten row blocks tile the output, so after the
  region the output array is that function of the four input arrays at every index.
-/
import proofs.«177149_j19361712570525_2_alg».proof.Proof.Gen.KernelIdeal.Frame
import proofs.«177149_j19361712570525_2_alg».proof.Proof.LibSegment
import proofs.«177149_j19361712570525_2_alg».proof.Proof.LibColumn
import Idealize.ShloMosaic.Lib.Pipeline.Value
import Idealize.ShloMosaic.Lib.ValueIdx
import Idealize.ShloMosaic.Lib.ValueLayout

set_option maxRecDepth 16384

noncomputable section

namespace Cert.KernelIdeal.Region1Value

open Cert.KernelIdeal Cert.KernelIdeal.Gen Idealize.ShloMosaic Idealize.ShloMosaic.TcCoe Idealize.SL.Sem
open Idealize.ShloMosaic.ValueIdx Cert.LibSegment
open Idealize.ShloMosaic.Pipeline (Dat)

/-! ## The body's result at an index of its block -/

/-- Entry `(p, q)` of what the body computes from a column block `v0`, the vector `v3` and two matrix blocks `v7`,
    `v11`: `(v0 p · v7 (p, q) + (v0 p · v0 p) · v11 (p, q)) + v3 q`. The reshapes to the same shape change nothing, the
    column stretched to 64 columns reads its row's entry, and the vector placed as one row and repeated over 5000 rows
    reads its column's entry. -/
theorem payload_apply (v0 : Vec Ideal S5000x1 .f32) (v3 : Vec Ideal S64 .f32) (v7 v11 : Vec Ideal S5000x64 .f32)
    (p : Fin 5000) (q : Fin 64) :
    k1_pay1 v0 v3 v7 v11 (ix2 p q)
      = (v0 (ix2 p (0 : Fin 1)) * v7 (ix2 p q) + (v0 (ix2 p (0 : Fin 1)) * v0 (ix2 p (0 : Fin 1))) * v11 (ix2 p q))
        + v3 (ix1 q) := by
  unfold k1_pay1
  simp only [shapeCast_self]
  rw [addf_apply, addf_apply, mulf_apply, mulf_apply,
    Cert.LibColumn.broadcastTo_a1_ab_apply, Cert.LibColumn.broadcastTo_a1_ab_apply, mulf_apply,
    broadcastTo_1b_ab_apply, shapeCast_a_1a_apply]

/-! ## The body's result from whole blocks -/

theorem zeros2 : (![0, 0] : Fin 2 → Nat) = fun _ => 0 := funext fun a => by fin_cases a <;> rfl
theorem zeros1 : (![0] : Fin 1 → Nat) = fun _ => 0 := funext fun a => by fin_cases a <;> rfl

/-- What the body leaves in the output block, at index `j` of the block, from the blocks `x0` of `g`, `x1` of `s`,
    `x2` of the column `d` and the vector `x3`: the body loads each block whole and stores once over the whole output
    block, so the block holds the payload of the loaded blocks. -/
theorem out_apply (x0 x1 : Vec Ideal S5000x64 .f32) (x2 : Vec Ideal S5000x1 .f32) (x3 : Vec Ideal S64 .f32)
    (j : S5000x64.Idx) :
    out1_4 x0 x1 x2 x3 j
      = (x2 (ix2 (fst2 j) (0 : Fin 1)) * x0 j + (x2 (ix2 (fst2 j) (0 : Fin 1)) * x2 (ix2 (fst2 j) (0 : Fin 1))) * x1 j)
        + x3 (ix1 (snd2 j)) := by
  unfold out1_4
  rw [View.canon_unit_zero zeros2]
  simp only [View.ld_unit_zero (S := S5000x64) zeros2, View.ld_unit_zero (S := S5000x1) zeros2,
    View.ld_unit_zero (S := S64) zeros1]
  obtain ⟨p, q, rfl⟩ : ∃ (p : Fin 5000) (q : Fin 64), j = ix2 p q := ⟨j 0, j 1, eq_ix2 j⟩
  exact payload_apply x2 x3 x0 x1 p q

/-! ## The whole output array -/

/-- The combination of four extended reals the body computes at each entry: `(x · y + (x · x) · z) + w`. -/
abbrev combineAt (x y z w : Elt Ideal .f32) : Elt Ideal .f32 := (x * y + (x * x) * z) + w

/-- The output array as a function of the column `d`, the matrices `g` and `s` and the vector `b`:
    entry `(r, j)` is `(d r · g (r, j) + (d r · d r) · s (r, j)) + b j`. -/
abbrev combineOf (d : S50000x1.Idx → Elt Ideal .f32) (g s : S50000x64.Idx → Elt Ideal .f32) (b : S64.Idx → Elt Ideal .f32) :
    S50000x64.Idx → Elt Ideal .f32 := fun i =>
  (d (ix2 (fst2 i) (0 : Fin 1)) * g i + (d (ix2 (fst2 i) (0 : Fin 1)) * d (ix2 (fst2 i) (0 : Fin 1))) * s i)
    + b (ix1 (snd2 i))

/-- The index maps over the grid of 10 points: at point `t` the two matrix inputs, the column and the output are at
    row block `t`, column block `0`; the vector is at block `0`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- WHAT POINT `t` WRITES BACK is block `t` of the whole-array function of the four input arrays as the region finds
    them: each input block is read at the rows the output block covers, the vector whole. -/
theorem flushed_eq (c : Dev nD) (t : Fin cfg1.N) :
    (dat1 (F := Ideal) V c).flushed 4 t
      = ((cfg1.win 4).blk t).view.read (Elt Ideal)
          (combineOf (V c main_v13) (V c main_v27) (V c main_v14_0) (V c main_arg3)) := by
  show (cfg1.win 4).cut (grid1.coords t) ((dat1 V c).after 4 t) = _
  rw [after1_4]
  obtain ⟨a00, a01, a10, a11, a20, a21, a30, a40, a41⟩ := idx_facts t
  funext j
  show out1_4 (iblk1 V c 0 t) (iblk1 V c 1 t) (iblk1 V c 2 t) (iblk1 V c 3 t) j
    = combineOf (V c main_v13) (V c main_v27) (V c main_v14_0) (V c main_arg3) (((cfg1.win 4).blk t).view.emb j)
  rw [out_apply]
  have h0 : ((cfg1.win 0).blk t).view.emb j = ((cfg1.win 4).blk t).view.emb j := by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 64 + 1 * (j 1).val = win1_4.index t (1 : Fin 2) * 64 + 1 * (j 1).val; omega
  have h1 : ((cfg1.win 1).blk t).view.emb j = ((cfg1.win 4).blk t).view.emb j := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 64 + 1 * (j 1).val = win1_4.index t (1 : Fin 2) * 64 + 1 * (j 1).val; omega
  have h2 : ((cfg1.win 2).blk t).view.emb (ix2 (fst2 (j : S5000x64.Idx)) (0 : Fin 1))
      = ix2 (fst2 (((cfg1.win 4).blk t).view.emb j : S50000x64.Idx)) (0 : Fin 1) := by
    funext a; apply Fin.ext
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  have h3 : ((cfg1.win 3).blk t).view.emb (ix1 (snd2 (j : S5000x64.Idx)))
      = ix1 (snd2 (((cfg1.win 4).blk t).view.emb j : S50000x64.Idx)) := by
    funext a; apply Fin.ext
    match a with
    | ⟨0, _⟩ => show win1_3.index t (0 : Fin 1) * 64 + 1 * (j 1).val = win1_4.index t (1 : Fin 2) * 64 + 1 * (j 1).val; omega
  show combineAt (V c main_v13 (((cfg1.win 2).blk t).view.emb (ix2 (fst2 (j : S5000x64.Idx)) (0 : Fin 1))))
      (V c main_v27 (((cfg1.win 0).blk t).view.emb j)) (V c main_v14_0 (((cfg1.win 1).blk t).view.emb j))
      (V c main_arg3 (((cfg1.win 3).blk t).view.emb (ix1 (snd2 (j : S5000x64.Idx))))) = _
  rw [h0, h1, h2, h3]

/-- An index of the output array is in point `t`'s block iff each coordinate is in the block's range on its axis. -/
theorem mem_blk (t : Fin cfg1.N) (i : S50000x64.Idx) :
    i ∈ ((cfg1.win 4).blk t).view.set
      ↔ ∀ a : Fin 2, win1_4.index t a * S5000x64.size a ≤ (i a).val
          ∧ (i a).val < win1_4.index t a * S5000x64.size a + S5000x64.size a := by
  show i ∈ ((View.whole main_v28).slice (win1_4.rect t)).set ↔ _
  rw [View.set_slice_whole, Rect.mem_set_unit]
  exact Iff.rfl

/-- THE BLOCKS COVER THE ARRAY: row `r` lies in the block of point `r / 5000`, and every point writes back. -/
theorem covered (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  let t : Fin cfg1.N := ⟨(i 0).val / 5000, by show (i 0).val / 5000 < 10; omega⟩
  obtain ⟨a00, a01, a10, a11, a20, a21, a30, a40, a41⟩ := idx_facts t
  have ht : t.val = (i 0).val / 5000 := rfl
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-! ## The array after the region -/

/-- THE OUTPUT ARRAY AFTER THE REGION: at every index `(r, j)`, `(d r · g (r, j) + (d r · d r) · s (r, j)) + b j` of
    the column `d`, the matrices `g`, `s` and the vector `b` as the region finds them: every point writes back its block
    of that function, and the ten blocks cover the array. -/
theorem combine_final (c : Dev nD) :
    (dat1 (F := Ideal) V c).arrAt 4 cfg1.N
      = combineOf (V c main_v13) (V c main_v27) (V c main_v14_0) (V c main_arg3) :=
  (dat1 (F := Ideal) V c).arrAt_eq_of_cover 4
    (combineOf (V c main_v13) (V c main_v27) (V c main_v14_0) (V c main_arg3))
    (fun t _ => flushed_eq V c t) covered

/-- The same at an index: entry `i = (r, j)` of the output array after the region. -/
theorem combine_final_apply (c : Dev nD) (i : S50000x64.Idx) :
    (dat1 (F := Ideal) V c).arrAt 4 cfg1.N i
      = combineAt (V c main_v13 (ix2 (fst2 i) (0 : Fin 1))) (V c main_v27 i) (V c main_v14_0 i)
          (V c main_arg3 (ix1 (snd2 i))) :=
  congrFun (combine_final V c) i

end Cert.KernelIdeal.Region1Value

end
-- ==== Proof.AggAtIndex.lean ====
/-
  THE AGGREGATED ARRAY READ AT AN INDEX.

  Between its two calls the kernel's host code builds, from an array `ss : [50000, 64]` and the edge list, the array

      agg[n, j] = 0 + Σ over the edges e added to row n of  offdiag[e] · ss[col e, j],

  where `offdiag` is the 0/1 vector marking the edges that are not self-loops, "added to row n" is the segment sum's
  reading of the edge's row number (signed, dropped when outside the table) and `col e` is the row gather's reading of the
  edge's wrapped column number (signed, clamped into the table). The vector `offdiag` reaches the product as a column
  `[800000, 1]` repeated along the `64` columns.
-/
import proofs.«177149_j19361712570525_2_alg».proof.Proof.Gen.KernelIdeal
import proofs.«177149_j19361712570525_2_alg».proof.Proof.Gen.ReferenceIdeal.Read
import proofs.«177149_j19361712570525_2_alg».proof.Proof.LibSegment
import proofs.«177149_j19361712570525_2_alg».proof.Proof.LibColumn

noncomputable section

open scoped BigOperators

namespace Cert.KernelIdeal.AggAtIndex

open Cert.KernelIdeal Idealize.ShloMosaic Idealize.ShloMosaic.ValueIdx Cert.LibSegment
open Cert.ReferenceIdeal.Read (val_main_v5 val_main_v36 val_main_v40 val_main_v41)

/-- The table has at least one row. -/
theorem hN : 0 < 50000 := by decide

variable (a : (⟨Cert.ReferenceIdeal.S2x800000, .i32⟩ : BufTy).Contents (Elt Ideal)) (ss : FVec Ideal S50000x64 .f32)

/-- THE MASK AS A MATRIX: a vector `[800000]` stored as a column `[800000, 1]` and repeated along the `64` columns has at
    `(e, j)` the vector's entry at `e`. -/
theorem mask_at (m : FVec Ideal S800000 .f32) (e : Fin 800000) (j : Fin 64) :
    (broadcastInDim S800000x64 ![0, 1] Facts₀.bcast_S800000x1_S800000x64_0_1
        (broadcastInDim S800000x1 ![0] Facts₀.bcast_S800000_S800000x1_0 m : FVec Ideal S800000x1 .f32)
      : FVec Ideal S800000x64 .f32) (ix2 e j) = m (ix1 e) :=
  (Cert.LibColumn.broadcastInDim_a1_ab_apply _ _ e j).trans
    (Cert.LibColumn.broadcastInDim_a_a1_apply _ m e (0 : Fin 1))

/-- THE AGGREGATED ARRAY READ AT `(n, j)`: zero plus the sum, over the edges `e` added to row `n`, of the mask at `e` times
    `ss` at row `col e`, column `j`. -/
theorem agg_apply (i : S50000x64.Idx) :
    Host.scatterAdd (F := Ideal) scatter_S50000x64_S800000x1_S800000x64_1_0_0_1 (val_main_v40 (F := Ideal))
        (val_main_v41 (F := Ideal) a)
        (mulf (φ := .f32)
          (broadcastInDim S800000x64 ![0, 1] Facts₀.bcast_S800000x1_S800000x64_0_1
            (broadcastInDim S800000x1 ![0] Facts₀.bcast_S800000_S800000x1_0
              (val_main_v5 (F := Ideal) a : FVec Ideal S800000 .f32) : FVec Ideal S800000x1 .f32)
            : FVec Ideal S800000x64 .f32)
          (Host.gather gather_S50000x64_S800000x1_S800000x64_1_0_n_n_0_1_164 ss (val_main_v36 (F := Ideal) a)
            : FVec Ideal S800000x64 .f32)) i
      = 0 + ∑ e ∈ Finset.univ.filter (fun e : Fin 800000 =>
              segOf (N := 50000) (val_main_v41 (F := Ideal) a) e = some (fst2 i)),
            val_main_v5 (F := Ideal) a (ix1 e)
              * ss (ix2 (rowOf (N := 50000) hN (val_main_v36 (F := Ideal) a) e) (snd2 i)) := by
  generalize val_main_v41 (F := Ideal) a = seg
  generalize val_main_v36 (F := Ideal) a = col
  generalize (val_main_v5 (F := Ideal) a : FVec Ideal S800000 .f32) = m
  refine (host_scatterAdd_seg_apply_idx (N := 50000) (E := 800000) (C := 64) _ seg
    (val_main_v40 (F := Ideal)) _ i).trans ?_
  have h0 : val_main_v40 (F := Ideal) i = 0 := by
    rw [Cert.ReferenceIdeal.Read.val_main_v40_apply, Cert.ReferenceIdeal.Read.val_main_cst_7_apply]
    exact Ideal.ofBits_zero_f32
  rw [h0]
  refine congrArg (0 + ·) (Finset.sum_congr rfl fun e _ => ?_)
  show FloatOps.mulf _ _ = _
  have hg : Host.gather gather_S50000x64_S800000x1_S800000x64_1_0_n_n_0_1_164 ss col (ix2 e (snd2 i)) =
      ss (ix2 (rowOf (N := 50000) hN col e) (snd2 i)) := gather_rows_apply hN _ ss col e (snd2 i)
  rw [mask_at, hg]
  rfl

end Cert.KernelIdeal.AggAtIndex

end
-- ==== Proof.LibFinite.lean ====
/-
Finiteness is preserved by exact arithmetic.

An extended real is called real here when it is the image of a real number, equivalently when
it is neither of the two infinities.  Sums, differences, products, maxima and minima of real
values are real; so are a quotient by a nonzero real value, the exponential of a real value
(which is moreover positive), and the reciprocal square root (positive) and the logarithm of a
positive real value; and so is every finite sum of real values.  Consequently the array
operations that are finite sums of products or finite sums of entries (matrix products,
reductions by addition, scatter with addition) send arrays of real entries to arrays of real
entries.
-/
import Mathlib.Data.EReal.Operations
import Mathlib.Data.EReal.Inv
import Mathlib.Algebra.BigOperators.Group.Finset.Basic
import Mathlib.Analysis.SpecialFunctions.Exp
import Mathlib.Analysis.SpecialFunctions.Sqrt
import Idealize.ShloMosaic.PureOps.Ideal
import Idealize.ShloMosaic.PureOps.Ideal.Laws

noncomputable section

open Idealize.ShloMosaic
open scoped BigOperators

namespace Cert.LibFinite

/-! ### Scalars -/

/-- An extended real is real when it is the image of a real number. -/
def IsRealE (x : EReal) : Prop := ∃ r : ℝ, x = (r : EReal)

/-- Every entry of a family of extended reals is real. -/
def AllReal {ι : Sort*} (f : ι → EReal) : Prop := ∀ i, IsRealE (f i)

/-- The image of a real number is real. -/
theorem isRealE_coe (r : ℝ) : IsRealE (r : EReal) := ⟨r, rfl⟩

/-- Zero is real. -/
theorem isRealE_zero : IsRealE 0 := ⟨0, EReal.coe_zero.symm⟩

/-- One is real. -/
theorem isRealE_one : IsRealE 1 := ⟨1, EReal.coe_one.symm⟩

/-- An extended real is real exactly when it is neither `+∞` nor `-∞`. -/
theorem isRealE_iff_ne (x : EReal) : IsRealE x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- A real extended real is the image of its real part. -/
theorem IsRealE.coe_toReal {x : EReal} (hx : IsRealE x) : ((x.toReal : ℝ) : EReal) = x :=
  EReal.coe_toReal ((isRealE_iff_ne x).mp hx).1 ((isRealE_iff_ne x).mp hx).2

/-- The sum of two real values is real. -/
theorem IsRealE.add {x y : EReal} (hx : IsRealE x) (hy : IsRealE y) : IsRealE (x + y) := by
  obtain ⟨a, rfl⟩ := hx
  obtain ⟨b, rfl⟩ := hy
  exact ⟨a + b, (EReal.coe_add a b).symm⟩

/-- The difference of two real values is real. -/
theorem IsRealE.sub {x y : EReal} (hx : IsRealE x) (hy : IsRealE y) : IsRealE (x - y) := by
  obtain ⟨a, rfl⟩ := hx
  obtain ⟨b, rfl⟩ := hy
  exact ⟨a - b, (EReal.coe_sub a b).symm⟩

/-- The product of two real values is real. -/
theorem IsRealE.mul {x y : EReal} (hx : IsRealE x) (hy : IsRealE y) : IsRealE (x * y) := by
  obtain ⟨a, rfl⟩ := hx
  obtain ⟨b, rfl⟩ := hy
  exact ⟨a * b, (EReal.coe_mul a b).symm⟩

/-- The negative of a real value is real. -/
theorem IsRealE.neg {x : EReal} (hx : IsRealE x) : IsRealE (-x) := by
  obtain ⟨a, rfl⟩ := hx
  exact ⟨-a, (EReal.coe_neg a).symm⟩

/-- The maximum of two real values is real (it is one of the two). -/
theorem IsRealE.max {x y : EReal} (hx : IsRealE x) (hy : IsRealE y) : IsRealE (max x y) := by
  rcases le_total x y with h | h
  · rw [max_eq_right h]; exact hy
  · rw [max_eq_left h]; exact hx

/-- The minimum of two real values is real (it is one of the two). -/
theorem IsRealE.min {x y : EReal} (hx : IsRealE x) (hy : IsRealE y) : IsRealE (min x y) := by
  rcases le_total x y with h | h
  · rw [min_eq_left h]; exact hx
  · rw [min_eq_right h]; exact hy

/-- The quotient of a real value by a nonzero real value is real. -/
theorem IsRealE.div {x y : EReal} (hx : IsRealE x) (hy : IsRealE y) (hy0 : y ≠ 0) :
    IsRealE (Ideal.div x y) := by
  obtain ⟨a, rfl⟩ := hx
  obtain ⟨b, rfl⟩ := hy
  have hb : b ≠ 0 := fun h => hy0 (by rw [h, EReal.coe_zero])
  exact ⟨a / b, by rw [Ideal.div_coe hb, ← EReal.coe_mul, mul_one_div]⟩

/-- The reciprocal square root of a positive real value is real. -/
theorem rsqrt_isRealE {x : EReal} {r : ℝ} (hx : x = (r : EReal)) (hr : 0 < r) :
    IsRealE (Ideal.rsqrt x) := by
  rw [hx, Ideal.rsqrt_coe, if_neg (not_lt.mpr hr.le), if_neg hr.ne']
  exact ⟨_, rfl⟩

/-- The reciprocal square root of a positive real value is positive. -/
theorem rsqrt_pos {x : EReal} {r : ℝ} (hx : x = (r : EReal)) (hr : 0 < r) :
    0 < Ideal.rsqrt x := by
  rw [hx, Ideal.rsqrt_coe, if_neg (not_lt.mpr hr.le), if_neg hr.ne']
  exact EReal.coe_pos.mpr (inv_pos.mpr (Real.sqrt_pos.mpr hr))

/-- The exponential of a real value is real. -/
theorem IsRealE.exp {x : EReal} (hx : IsRealE x) : IsRealE (Ideal.exp x) := by
  obtain ⟨a, rfl⟩ := hx
  exact ⟨Real.exp a, Ideal.exp_coe a⟩

/-- The exponential of a real value is positive. -/
theorem IsRealE.exp_pos {x : EReal} (hx : IsRealE x) : 0 < Ideal.exp x := by
  obtain ⟨a, rfl⟩ := hx
  rw [Ideal.exp_coe]
  exact EReal.coe_pos.mpr (Real.exp_pos a)

/-- The logarithm of a positive real value is real. -/
theorem log_isRealE {x : EReal} {r : ℝ} (hx : x = (r : EReal)) (hr : 0 < r) :
    IsRealE (Ideal.log x) := by
  rw [hx, Ideal.log_coe, if_neg (not_le.mpr hr)]
  exact ⟨_, rfl⟩

/-- A finite sum of real values is real. -/
theorem IsRealE.sum {ι : Type*} (s : Finset ι) (f : ι → EReal) (h : ∀ i ∈ s, IsRealE (f i)) :
    IsRealE (∑ i ∈ s, f i) := by
  classical
  induction s using Finset.induction_on with
  | empty => rw [Finset.sum_empty]; exact isRealE_zero
  | insert a s ha ih =>
    rw [Finset.sum_insert ha]
    exact (h a (Finset.mem_insert_self a s)).add
      (ih (fun i hi => h i (Finset.mem_insert_of_mem hi)))

/-! ### Families -/

/-- A family has only real entries exactly when it is the entrywise image of a real family. -/
theorem allReal_iff_exists {ι : Sort*} (f : ι → EReal) :
    AllReal f ↔ ∃ g : ι → ℝ, f = fun i => ((g i : ℝ) : EReal) := by
  constructor
  · intro h
    choose g hg using h
    exact ⟨g, funext hg⟩
  · rintro ⟨g, rfl⟩ i
    exact ⟨g i, rfl⟩

/-- The entrywise image of a real family has only real entries. -/
theorem allReal_coe {ι : Sort*} (g : ι → ℝ) : AllReal (fun i => ((g i : ℝ) : EReal)) :=
  fun i => ⟨g i, rfl⟩

/-- A family with only real entries is the entrywise image of its real parts. -/
theorem AllReal.eq_coe_toReal {ι : Sort*} {f : ι → EReal} (h : AllReal f) :
    f = fun i => (((f i).toReal : ℝ) : EReal) :=
  funext (fun i => ((h i).coe_toReal).symm)

/-- A sum over a finite index type of a family with only real entries is real. -/
theorem AllReal.sum_univ {ι : Type*} [Fintype ι] {f : ι → EReal} (h : AllReal f) :
    IsRealE (∑ i, f i) :=
  IsRealE.sum _ _ (fun i _ => h i)

/-! ### Array operations -/

/-- A matrix product with accumulator (accumulator plus the sum over the contracted indices of
    the products) of arrays with real entries has real entries. -/
theorem matmul_allReal {sl sr so : Shape} (d : DotDims sl sr so) (lhs : sl.Idx → EReal)
    (rhs : sr.Idx → EReal) (acc : so.Idx → EReal) (hl : AllReal lhs) (hr : AllReal rhs)
    (ha : AllReal acc) : AllReal (Ideal.matmul d lhs rhs acc) := by
  intro j
  unfold Ideal.matmul
  exact (ha j).add (IsRealE.sum _ _ (fun k _ => (hl _).mul (hr _)))

/-- A matrix product without accumulator of arrays with real entries has real entries. -/
theorem mxuPass_allReal {sl sr so : Shape} (d : DotDims sl sr so) (lhs : sl.Idx → EReal)
    (rhs : sr.Idx → EReal) (hl : AllReal lhs) (hr : AllReal rhs) :
    AllReal (Ideal.mxuPass d lhs rhs) := by
  intro j
  unfold Ideal.mxuPass
  exact IsRealE.sum _ _ (fun k _ => (hl _).mul (hr _))

/-- A reduction by addition with a real initial value (initial value plus the sum of the entries
    that reduce to each index) of an array with real entries has real entries. -/
theorem hostReduceAdd_allReal {s : Shape} {axes : List (Fin s.rank)} {t : Shape}
    (h : s.ReducesTo axes t) (x : s.Idx → EReal) (init : EReal) (hx : AllReal x)
    (hi : IsRealE init) : AllReal (Ideal.hostReduceAdd h x init) := by
  intro j
  unfold Ideal.hostReduceAdd
  exact hi.add (IsRealE.sum _ _ (fun i _ => hx i))

/-- A reduction by addition (the sum of the entries that reduce to each index) of an array with
    real entries has real entries. -/
theorem reduceAdd_allReal {s : Shape} {axes : List (Fin s.rank)} {t : Shape}
    (h : s.Reduces axes t) (x : s.Idx → EReal) (hx : AllReal x) :
    AllReal (Ideal.reduceAdd h x) := by
  intro j
  unfold Ideal.reduceAdd
  exact IsRealE.sum _ _ (fun i _ => hx i)

/-- A scatter with addition (each entry plus the sum of the updates that land on it) of arrays
    with real entries has real entries. -/
theorem hostScatterAdd_allReal {s si su : Shape} (d : ScatterDims s si su) {w : Nat}
    (x : s.Idx → EReal) (idx : IVec si w) (upd : su.Idx → EReal) (hx : AllReal x)
    (hu : AllReal upd) : AllReal (Ideal.hostScatterAdd d x idx upd) := by
  intro i
  unfold Ideal.hostScatterAdd
  exact (hx i).add (IsRealE.sum _ _ (fun j _ => hu j))

end Cert.LibFinite
-- ==== Proof.SharedFacts.lean ====
/-
  Facts about the quantities both programs compute from the edge list.

  Both programs compute, by the same operations, the edges' row and column numbers, the off-diagonal mask (0 or 1), the
  degrees (one plus the number of off-diagonal edges of a row) and their powers −1/2. Here: the mask, the powers and
  the support x·W have only real entries (the degrees are real, and a real base to a real exponent is real); an edge
  whose row number lies in range reads, through the wrapping-and-clamping of a row gather, exactly its own row; and
  the two spellings of the wrapped column numbers are one array.
-/
import proofs.«177149_j19361712570525_2_alg».proof.Proof.Gen.ReferenceIdeal.Read
import proofs.«177149_j19361712570525_2_alg».proof.Proof.LibSegment
import proofs.«177149_j19361712570525_2_alg».proof.Proof.LibFinite

noncomputable section

namespace Cert.ReferenceIdeal.Shared

open Cert.ReferenceIdeal Cert.ReferenceIdeal.Read Idealize.ShloMosaic Idealize.ShloMosaic.ValueIdx
open Cert.LibSegment Cert.LibFinite

variable (a : (⟨S2x800000, .i32⟩ : BufTy).Contents (Elt Ideal))

/-! ## Real entries -/

/-- The off-diagonal mask is 0 or 1, a real number. -/
theorem off_real : AllReal (val_main_v5 (F := Ideal) a) := fun i => ⟨_, rfl⟩

/-- The pattern of 0 is a real number. -/
theorem zero_pattern_real : IsRealE (Ideal.ofBits .f32 0x00000000#32) := by
  rw [Ideal.ofBits_zero_f32]; exact isRealE_zero

/-- The pattern of 1 is a real number. -/
theorem one_pattern_real : IsRealE (Ideal.ofBits .f32 0x3F800000#32) :=
  ⟨1, by simp [Ideal.ofBits, Ideal.ieee, -EReal.coe_mul]; norm_num⟩

/-- The pattern of −1/2 is a real number. -/
theorem neg_half_pattern_real : IsRealE (Ideal.ofBits .f32 0xBF000000#32) :=
  ⟨-(1/2), by simp [Ideal.ofBits, Ideal.ieee, -EReal.coe_mul]; norm_num⟩

/-- The degrees are real: one plus the sum of the mask over the edges of a row (a rank-1 segment sum into zeros). -/
theorem deg_real : AllReal (val_main_v10 (F := Ideal) a) := by
  intro i
  have hoff := off_real a
  have h8 : IsRealE (val_main_v8 (F := Ideal) a i) := by
    unfold val_main_v8
    generalize val_main_v7 (F := Ideal) a = idx
    generalize val_main_v5 (F := Ideal) a = upd at hoff ⊢
    have h : Host.scatterAdd (F := Ideal) (φ := .f32) scatter_S50000_S800000x1_S800000_n_0_0_1 (val_main_v6 (F := Ideal)) idx upd i = _ :=
      host_scatterAdd_seg1_apply_idx (N := 50000) (E := 800000) (φ := .f32) _ idx (val_main_v6 (F := Ideal)) upd i
    rw [h]
    refine IsRealE.add ?_ (IsRealE.sum _ _ fun e _ => hoff _)
    rw [val_main_v6_apply]; exact zero_pattern_real
  have h9 : IsRealE (val_main_v9 (F := Ideal) i) := by
    rw [val_main_v9_apply]; exact one_pattern_real
  rw [val_main_v10_apply]
  generalize val_main_v8 (F := Ideal) a i = p at h8 ⊢
  generalize val_main_v9 (F := Ideal) i = q at h9 ⊢
  exact h8.add h9

/-- The inverse square roots of the degrees are real. -/
theorem dinv_real : AllReal (val_main_v12 (F := Ideal) a) := by
  intro i
  rw [val_main_v12_apply, val_main_v11_apply]
  obtain ⟨x, hx⟩ := deg_real a i
  obtain ⟨y, hy⟩ := neg_half_pattern_real
  rw [hx]
  show IsRealE (Ideal.pow (x : EReal) (val_main_cst_1 (F := Ideal) (idx_main_v11 i)))
  rw [show val_main_cst_1 (F := Ideal) (idx_main_v11 i) = (y : EReal) from hy, Ideal.pow_coe_coe]
  exact ⟨_, rfl⟩

/-- The support x·W of real features and real weights is real. -/
theorem support_real (x : (⟨S50000x64, .f32⟩ : BufTy).Contents (Elt Ideal)) (w : (⟨S64x64, .f32⟩ : BufTy).Contents (Elt Ideal))
    (hx : AllReal x) (hw : AllReal w) : AllReal (val_main_v13 (F := Ideal) x w) := by
  intro i
  rw [val_main_v13_apply]
  exact IsRealE.sum _ _ (fun k _ => (hx _).mul (hw _))

/-! ## Row numbers in range are read back unchanged -/

/-- A non-negative word is left alone by "add the extent if negative". -/
theorem wrap_nonneg (w : BitVec 32) (h : 0 ≤ w.toInt) :
    Scalar.select (IntOp.cmpi .slt w 0#32) (IntOp.addi w 50000#32) w = w := by
  have hs : w.slt 0#32 = false := by
    rw [BitVec.slt]; simp; exact h
  unfold Scalar.select IntOp.cmpi
  simp [hs]

/-- The row numbers laid as a column, at edge `e`. -/
theorem rows_col_apply (e : Fin 800000) :
    val_main_v41 (F := Ideal) a (ix2 e (0 : Fin 1)) = val_main_v1 (F := Ideal) a (ix1 e) := by
  rw [val_main_v41_apply]
  refine congrArg _ (funext fun ax => Fin.ext ?_)
  match ax with
  | ⟨0, _⟩ => rfl

/-- The wrapped row numbers laid as a column, at edge `e`. -/
theorem wrapped_rows_col_apply (e : Fin 800000) :
    val_main_v19 (F := Ideal) a (ix2 e (0 : Fin 1)) =
      Scalar.select (IntOp.cmpi .slt (val_main_v1 (F := Ideal) a (ix1 e)) 0#32)
        (IntOp.addi (val_main_v1 (F := Ideal) a (ix1 e)) 50000#32) (val_main_v1 (F := Ideal) a (ix1 e)) := by
  have hi : idx_main_v19 (ix2 e (0 : Fin 1)) = ix1 e := funext fun ax => Fin.ext (by
    match ax with
    | ⟨0, _⟩ => rfl)
  rw [val_main_v19_apply, hi, val_main_v18_apply, val_main_v15_apply, val_main_v17_apply, val_main_v14_apply,
    val_main_v16_apply]
  rfl

/-- An edge summed into row `r` (its row number is `r`, in range) reads row `r` through the wrapped, clamped row
    gather. -/
theorem row_read_back (e : Fin 800000) (r : Fin 50000)
    (h : segOf (N := 50000) (val_main_v41 (F := Ideal) a) e = some r) :
    rowOf (N := 50000) (by decide) (val_main_v19 (F := Ideal) a) e = r := by
  have h2 := (segOf_eq_some_iff _ e r).mp h
  rw [rows_col_apply] at h2
  have hr := r.isLt
  refine Fin.ext ?_
  show min (val_main_v19 (F := Ideal) a (ix2 e (0 : Fin 1))).toInt.toNat (50000 - 1) = r.val
  rw [wrapped_rows_col_apply, wrap_nonneg _ (by omega)]
  omega

/-- The wrapped column numbers, spelt twice by the reference, are one array. -/
theorem wrapped_cols_eq : val_main_v27 (F := Ideal) a = val_main_v36 (F := Ideal) a := rfl

end Cert.ReferenceIdeal.Shared

end
-- ==== Proof.GcnAlgebra.lean ====
/-
  The one law that joins the two programs.

  The kernel scales each node's aggregated neighbour sum once, after the sum: d · Σ_e o_e · (d_e · g_e). The reference
  scales each edge's term before the sum: Σ_e ((d'_e · o_e) · d_e) · g_e, where d'_e is the scale read back at the
  edge's own row — the same number d for every edge of the segment. Over real numbers the two agree by
  distributivity; on the extended reals distributivity needs every factor to be real, which is why the statement
  carries those hypotheses.
-/
import proofs.«177149_j19361712570525_2_alg».proof.Proof.LibFinite

noncomputable section

open scoped BigOperators

namespace Cert.GcnAlgebra

open Cert.LibFinite

/-- The image of a finite sum of reals is the sum of the images. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Scaling a segment's sum once is scaling each of its terms, when every factor is real and the per-edge scale is
    the segment's scale on every edge of the segment. -/
theorem scale_segment {ι : Type*} (s : Finset ι) (a : EReal) (o d g ar : ι → EReal)
    (ha : IsRealE a) (ho : ∀ e, IsRealE (o e)) (hd : ∀ e, IsRealE (d e)) (hg : ∀ e, IsRealE (g e))
    (har : ∀ e ∈ s, ar e = a) :
    a * (0 + ∑ e ∈ s, o e * (d e * g e)) = 0 + ∑ e ∈ s, ((ar e * o e) * d e) * g e := by
  obtain ⟨a', rfl⟩ := ha
  choose o' ho' using ho
  choose d' hd' using hd
  choose g' hg' using hg
  have h1 : ∑ e ∈ s, ((ar e * o e) * d e) * g e = ((∑ e ∈ s, ((a' * o' e) * d' e) * g' e : ℝ) : EReal) := by
    rw [coe_sum]
    refine Finset.sum_congr rfl fun e he => ?_
    rw [har e he, ho' e, hd' e, hg' e, ← EReal.coe_mul, ← EReal.coe_mul, ← EReal.coe_mul]
  have h2 : ∑ e ∈ s, o e * (d e * g e) = ((∑ e ∈ s, o' e * (d' e * g' e) : ℝ) : EReal) := by
    rw [coe_sum]
    refine Finset.sum_congr rfl fun e _ => ?_
    rw [ho' e, hd' e, hg' e, ← EReal.coe_mul, ← EReal.coe_mul]
  rw [h1, h2, zero_add, zero_add, ← EReal.coe_mul, Finset.mul_sum]
  refine congrArg _ (Finset.sum_congr rfl fun e _ => ?_)
  ring

/-- The two programs' result at one entry: the aggregated term scaled after or before the sum, then the self-loop term
    and the bias added in the same order. -/
theorem out_eq {ι : Type*} (s : Finset ι) (a sr b : EReal) (o d g ar : ι → EReal)
    (ha : IsRealE a) (ho : ∀ e, IsRealE (o e)) (hd : ∀ e, IsRealE (d e)) (hg : ∀ e, IsRealE (g e))
    (har : ∀ e ∈ s, ar e = a) :
    (a * (0 + ∑ e ∈ s, o e * (d e * g e)) + (a * a) * sr) + b
      = ((0 + ∑ e ∈ s, ((ar e * o e) * d e) * g e) + (a * a) * sr) + b := by
  rw [scale_segment s a o d g ar ha ho hd hg har]

end Cert.GcnAlgebra

end
-- ==== Proof.Bridge.lean ====
/-
  The two programs' results are one function of the inputs, entry by entry.

  At entry (r, j), with d = deg^(−1/2), o the off-diagonal mask, S = x·W the support, c(e) the (wrapped, clamped) column
  number of edge e and the sums over the edges whose row number is r:
    the kernel computes   (d_r · Σ_e o_e · (d_c(e) · S_c(e),j) + (d_r · d_r) · S_r,j) + b_j,
    the reference         (Σ_e ((d_row(e) · o_e) · d_c(e)) · S_c(e),j + (d_r · d_r) · S_r,j) + b_j,
  where row(e) is the row number of e read back through a wrapped, clamped gather — r itself for every edge of the sum.
  All factors are real when the float inputs are, so d_r distributes over the sum.
-/
import proofs.«177149_j19361712570525_2_alg».proof.Proof.SharedFacts
import proofs.«177149_j19361712570525_2_alg».proof.Proof.GcnAlgebra

noncomputable section

namespace Cert.ReferenceIdeal.Bridge

open Cert.ReferenceIdeal Cert.ReferenceIdeal.Read Idealize.ShloMosaic Idealize.ShloMosaic.ValueIdx
open Cert.LibSegment Cert.LibFinite Cert.ReferenceIdeal.Shared

variable (x : (⟨S50000x64, .f32⟩ : BufTy).Contents (Elt Ideal)) (a : (⟨S2x800000, .i32⟩ : BufTy).Contents (Elt Ideal))
  (w : (⟨S64x64, .f32⟩ : BufTy).Contents (Elt Ideal)) (b : (⟨S64, .f32⟩ : BufTy).Contents (Elt Ideal))

/-- The kernel's result at an entry, in the vocabulary of the quantities shared with the reference. -/
def kernelOut (i : S50000x64.Idx) : EReal :=
  (val_main_v12 (F := Ideal) a (ix1 (fst2 i)) *
      (0 + ∑ e ∈ Finset.univ.filter (fun e : Fin 800000 => segOf (N := 50000) (val_main_v41 (F := Ideal) a) e = some (fst2 i)),
        val_main_v5 (F := Ideal) a (ix1 e) *
          (val_main_v12 (F := Ideal) a (ix1 (rowOf (N := 50000) (by decide) (val_main_v36 (F := Ideal) a) e)) *
            val_main_v13 (F := Ideal) x w (ix2 (rowOf (N := 50000) (by decide) (val_main_v36 (F := Ideal) a) e) (snd2 i))))
    + (val_main_v12 (F := Ideal) a (ix1 (fst2 i)) * val_main_v12 (F := Ideal) a (ix1 (fst2 i))) * val_main_v13 (F := Ideal) x w i)
   + b (ix1 (snd2 i))

/-- The reference's result at an entry, in the same vocabulary. -/
def referenceOut (i : S50000x64.Idx) : EReal :=
  ((0 + ∑ e ∈ Finset.univ.filter (fun e : Fin 800000 => segOf (N := 50000) (val_main_v41 (F := Ideal) a) e = some (fst2 i)),
        ((val_main_v12 (F := Ideal) a (ix1 (rowOf (N := 50000) (by decide) (val_main_v19 (F := Ideal) a) e)) * val_main_v5 (F := Ideal) a (ix1 e))
           * val_main_v12 (F := Ideal) a (ix1 (rowOf (N := 50000) (by decide) (val_main_v27 (F := Ideal) a) e)))
          * val_main_v13 (F := Ideal) x w (ix2 (rowOf (N := 50000) (by decide) (val_main_v36 (F := Ideal) a) e) (snd2 i)))
      + (val_main_v12 (F := Ideal) a (ix1 (fst2 i)) * val_main_v12 (F := Ideal) a (ix1 (fst2 i))) * val_main_v13 (F := Ideal) x w i)
     + b (ix1 (snd2 i))

/-- With real features and weights the two are equal: the row's scale distributes over the row's sum, and each edge of
    the sum reads that same scale back at its own row. -/
theorem kernelOut_eq_referenceOut (hx : AllReal x) (hw : AllReal w) (i : S50000x64.Idx) :
    kernelOut x a w b i = referenceOut x a w b i := by
  unfold kernelOut referenceOut
  rw [wrapped_cols_eq]
  refine Cert.GcnAlgebra.out_eq _ _ _ _
    (fun e => val_main_v5 (F := Ideal) a (ix1 e))
    (fun e => val_main_v12 (F := Ideal) a (ix1 (rowOf (N := 50000) (by decide) (val_main_v36 (F := Ideal) a) e)))
    (fun e => val_main_v13 (F := Ideal) x w (ix2 (rowOf (N := 50000) (by decide) (val_main_v36 (F := Ideal) a) e) (snd2 i)))
    (fun e => val_main_v12 (F := Ideal) a (ix1 (rowOf (N := 50000) (by decide) (val_main_v19 (F := Ideal) a) e)))
    (dinv_real a _) (fun e => off_real a _) (fun e => dinv_real a _) (fun e => support_real x w hx hw _) ?_
  intro e he
  rw [Finset.mem_filter] at he
  show val_main_v12 (F := Ideal) a (ix1 (rowOf (N := 50000) (by decide) (val_main_v19 (F := Ideal) a) e)) = _
  rw [row_read_back a e (fst2 i) he.2]

end Cert.ReferenceIdeal.Bridge

end
-- ==== Proof.KernelAtIndex.lean ====
/-
  The idealized kernel's result, entry by entry, as a function of the inputs.

  The result buffer after the run is what the second call's ten write-backs leave: at (r, j),
  (d_r · g_r,j + (d_r · d_r) · s_r,j) + b_j, where d is the column of inverse square roots of the degrees, s = x·W is
  what the first call left in its first output, b is the bias, and g is the host's aggregation between the calls:
  the sum, over the edges whose row number is r, of the mask times the row of the first call's second output
  d · (x·W) at the edge's column number. Written out, this is the function `kernelOut` of the four inputs.
-/
import proofs.«177149_j19361712570525_2_alg».proof.Proof.HostChain
import proofs.«177149_j19361712570525_2_alg».proof.Proof.Region0Value
import proofs.«177149_j19361712570525_2_alg».proof.Proof.Region1Value
import proofs.«177149_j19361712570525_2_alg».proof.Proof.AggAtIndex
import proofs.«177149_j19361712570525_2_alg».proof.Proof.Bridge
import proofs.«177149_j19361712570525_2_alg».proof.Proof.LibColumn

set_option maxRecDepth 16384

noncomputable section

open scoped BigOperators

namespace Cert.KernelIdeal.KernelAtIndex

open Idealize.ShloMosaic Idealize.ShloMosaic.TcCoe Idealize.SL.Sem Idealize.ShloMosaic.ValueIdx
open Cert.KernelIdeal Cert.KernelIdeal.Gen Cert.KernelIdeal.HostChain Cert.LibSegment
open Cert.ReferenceIdeal.Read (val_main_v5 val_main_v12 val_main_v13 val_main_v36 val_main_v40 val_main_v41
  val_main_v13_apply lidx_main_v13 ridx_main_v13)

variable (m : (ℓ : Loc nD τ sig) → Buf (Elt Ideal) ℓ) (ρ : Dev nD → PrngReg) (c : Dev nD)

/-- The features at launch. -/
abbrev feat : (⟨S50000x64, .f32⟩ : BufTy).Contents (Elt Ideal) := m ((c : Thread nD τ).loc main_arg0)
/-- The weights at launch. -/
abbrev wts : (⟨S64x64, .f32⟩ : BufTy).Contents (Elt Ideal) := m ((c : Thread nD τ).loc main_arg2)
/-- The bias at launch. -/
abbrev bias : (⟨S64, .f32⟩ : BufTy).Contents (Elt Ideal) := m ((c : Thread nD τ).loc main_arg3)

/-- A row of the features against a column of the weights is the reference's support at that entry. -/
theorem row_dot_col (i : S50000x64.Idx) :
    ∑ k : Fin 64, Region0Value.xArr (V1 m ρ) c (ix2 (fst2 i) k) * Region0Value.wArr (V1 m ρ) c (ix2 k (snd2 i))
      = val_main_v13 (F := Ideal) (feat m c) (wts m c) i := by
  have hx : Region0Value.xArr (V1 m ρ) c = feat m c := entry0_x m ρ c
  have hw : Region0Value.wArr (V1 m ρ) c = wts m c := entry0_w m ρ c
  rw [hx, hw, val_main_v13_apply]
  refine Finset.sum_congr rfl fun k _ => ?_
  have hl : lidx_main_v13 i k = ix2 (fst2 i) k := funext fun ax => by
    match ax with
    | ⟨0, _⟩ => rfl
    | ⟨1, _⟩ => rfl
  have hr : ridx_main_v13 i k = ix2 k (snd2 i) := funext fun ax => by
    match ax with
    | ⟨0, _⟩ => rfl
    | ⟨1, _⟩ => rfl
  rw [hl, hr]

/-- The first call's first output is the support x·W. -/
theorem support_eq : (dat0 (F := Ideal) (V1 m ρ) c).arrAt 3 cfg0.N = val_main_v13 (F := Ideal) (feat m c) (wts m c) := by
  rw [Region0Value.support_final]
  funext i
  exact row_dot_col m ρ c i

/-- The first call's second output is the support with each row scaled by the row's inverse square root. -/
theorem scaled_eq : (dat0 (F := Ideal) (V1 m ρ) c).arrAt 4 cfg0.N
    = (fun i : S50000x64.Idx => val_main_v12 (F := Ideal) (adj m c) (ix1 (fst2 i)) * val_main_v13 (F := Ideal) (feat m c) (wts m c) i) := by
  rw [Region0Value.scaled_final]
  funext i
  have hd : Region0Value.dArr (V1 m ρ) c
      = shapeCast S50000x1 (val_main_v12 (F := Ideal) (adj m c)) shapeCasts_S50000_S50000x1 := entry0_d m ρ c
  rw [row_dot_col m ρ c i, hd, Cert.LibColumn.shapeCast_a_a1_apply]

/-- THE RESULT AT AN ENTRY. -/
theorem kernel_apply (i : S50000x64.Idx) :
    W4 m ρ c (Proc.devRef .tc main_v28) i
      = Cert.ReferenceIdeal.Bridge.kernelOut (feat m c) (adj m c) (wts m c) (bias m c) i := by
  have h4 : W4 m ρ c (Proc.devRef .tc main_v28) = (dat1 (F := Ideal) (V3 m ρ) c).arrAt 4 cfg1.N := W4_arr m ρ c 4
  rw [h4, Region1Value.combine_final (V3 m ρ) c, entry1_d, entry1_agg, entry1_support, entry1_b, support_eq, scaled_eq]
  unfold Cert.ReferenceIdeal.Bridge.kernelOut
  dsimp only [Region1Value.combineOf]
  rw [Cert.LibColumn.shapeCast_a_a1_apply, AggAtIndex.agg_apply]

end Cert.KernelIdeal.KernelAtIndex

end
-- ==== Proof.LibGather1.lean ====
/-
  RANK-1 GATHER READ AT AN INDEX.

  With start indices `idx` of shape `[E, 1]` (one entry number per edge), the gather `x[idx]` of a vector `x : [N]`
  has at `e` the entry of `x` at position `idx[e, 0]`, read signed and clamped into `[0, N − 1]`: the same position
  `rowOf idx e` that the row gather of a table with `N` rows reads.
-/
import Idealize.ShloMosaic.PureOps.Ideal
import Idealize.ShloMosaic.Lib.ValueIdx
import proofs.«177149_j19361712570525_2_alg».proof.Proof.LibSegment

noncomputable section

namespace Cert.LibGather1

open Idealize.ShloMosaic Idealize.ShloMosaic.ValueIdx Cert.LibSegment

variable {α : Type}

/-- The dimension numbers of the rank-1 gather: operand `[N]`, start indices `[E, 1]`, result `[E]`; the operand's one
    axis is collapsed and indexed, the result has no offset axis. Their conditions `wf` are decided on literal
    shapes. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE RANK-1 GATHER READ AT AN INDEX `y = (e)`: the vector at position `rowOf idx e`. The operand coordinate is the
    start index `idx[e, 0]`, read signed and clamped into `[0, N − 1]`, alone: the axis is collapsed (no offset) and is
    not a batching axis. -/
theorem gather_vec_apply_idx {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (vecDims N E wf) x idx y = x (ix1 (rowOf hN idx (fst1 y))) := by
  unfold Host.gather
  congr 1
  funext a
  refine Fin.ext ?_
  match a with
  | ⟨0, _⟩ =>
    show (vecDims N E wf).start y idx 0 + (vecDims N E wf).batchCoord y 0 + (vecDims N E wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N E wf).startIndexMap from List.mem_singleton.mpr rfl)]
    have hsi : (vecDims N E wf).siIdx y ⟨List.idxOf (0 : Fin 1) (vecDims N E wf).startIndexMap,
        List.idxOf_lt_length_iff.2 (List.mem_singleton.mpr rfl)⟩ = ix2 (fst1 y) (0 : Fin 1) := by
      funext b; refine Fin.ext ?_
      match b with
      | ⟨0, _⟩ => rfl
      | ⟨1, _⟩ => rfl
    rw [hsi]
    rfl

/-- The rank-1 gather at `e`: the vector at position `rowOf idx e`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (rowOf hN idx e)) :=
  gather_vec_apply_idx hN wf x idx (ix1 e)

end Cert.LibGather1

end
-- ==== Proof.RefAtIndex.lean ====
/-
  THE REFERENCE READ AT AN INDEX.

  The reference is a graph-convolution layer. With `dinv` the vector of inverse square roots of the degrees, `offdiag`
  the 0/1 vector marking the edges that are not self-loops, and `support` the product of the features with the weight
  matrix, its output at `(n, j)` is

      ( 0 + Σ over the edges e added to row n of  ((dinv[row e] · offdiag[e]) · dinv[col e]) · support[col e, j] )
        + (dinv[n] · dinv[n]) · support[n, j]
        + bias[j],

  where "added to row n" is the segment sum's reading of the edge's row number (signed, dropped when outside the table)
  and `row e`, `col e` are the gathers' readings of the row and column numbers (signed, clamped into the table).
-/
import proofs.«177149_j19361712570525_2_alg».proof.Proof.Gen.ReferenceIdeal.Read
import proofs.«177149_j19361712570525_2_alg».proof.Proof.LibSegment
import proofs.«177149_j19361712570525_2_alg».proof.Proof.LibGather1
import proofs.«177149_j19361712570525_2_alg».proof.Proof.LibColumn

noncomputable section

open scoped BigOperators

namespace Cert.ReferenceIdeal.RefAtIndex

open Cert.ReferenceIdeal Cert.ReferenceIdeal.Read Idealize.ShloMosaic Idealize.ShloMosaic.ValueIdx Cert.LibSegment
open Cert.LibGather1

variable (x0 : (⟨S50000x64, .f32⟩ : BufTy).Contents (Elt Ideal)) (x1 : (⟨S2x800000, .i32⟩ : BufTy).Contents (Elt Ideal))
  (x2 : (⟨S64x64, .f32⟩ : BufTy).Contents (Elt Ideal)) (x3 : (⟨S64, .f32⟩ : BufTy).Contents (Elt Ideal))

/-- The table has at least one row. -/
theorem hN : 0 < 50000 := by decide

/-- THE BIAS TERM: the bias vector laid along the columns of a `[1, 64]` matrix and repeated down the `50000` rows has at
    `(n, j)` the bias at `j`. -/
theorem bias_at (i : S50000x64.Idx) : val_main_v49 (F := Ideal) x3 i = x3 (ix1 (snd2 i)) := by
  rw [val_main_v49_apply, val_main_v48_apply]
  refine congrArg x3 ?_
  funext a; refine Fin.ext ?_
  match a with
  | ⟨0, _⟩ => rfl

/-- THE SELF-LOOP COEFFICIENT: the vector `dinv · dinv` stored as a column and repeated along the `64` columns has at
    `(n, j)` the value `dinv[n] · dinv[n]`. -/
theorem self_at (i : S50000x64.Idx) :
    val_main_v45 (F := Ideal) x1 i =
      val_main_v12 (F := Ideal) x1 (ix1 (fst2 i)) * val_main_v12 (F := Ideal) x1 (ix1 (fst2 i)) := by
  rw [val_main_v45_apply, val_main_v44_apply, val_main_v43_apply]
  have h : idx_main_v44 (idx_main_v45 i) = ix1 (fst2 i) := by
    funext a; refine Fin.ext ?_
    match a with
    | ⟨0, _⟩ => rfl
  rw [h]
  generalize val_main_v12 (F := Ideal) x1 = dinv
  rfl

/-- THE EDGE WEIGHT: the rank-1 vector `ew = (dinv[row] · offdiag) · dinv[col]`, stored as a column and repeated along the
    `64` columns, has at `(e, j)` the weight of edge `e`; `row e` and `col e` are the start indices of the two rank-1
    gathers, read signed and clamped into the table. -/
theorem weight_at (e : Fin 800000) (j : Fin 64) :
    val_main_v38 (F := Ideal) x1 (ix2 e j) =
      (val_main_v12 (F := Ideal) x1 (ix1 (rowOf (N := 50000) hN (val_main_v19 (F := Ideal) x1) e))
          * val_main_v5 (F := Ideal) x1 (ix1 e))
        * val_main_v12 (F := Ideal) x1 (ix1 (rowOf (N := 50000) hN (val_main_v27 (F := Ideal) x1) e)) := by
  rw [val_main_v38_apply, val_main_v30_apply]
  have h : idx_main_v30 (idx_main_v38 (ix2 e j)) = ix1 e := by
    funext a; refine Fin.ext ?_
    match a with
    | ⟨0, _⟩ => rfl
  rw [h, val_main_v29_apply, val_main_v21_apply]
  have h20 : val_main_v20 (F := Ideal) x1 (ix1 e) =
      val_main_v12 (F := Ideal) x1 (ix1 (rowOf (N := 50000) hN (val_main_v19 (F := Ideal) x1) e)) := by
    unfold val_main_v20
    generalize val_main_v12 (F := Ideal) x1 = dinv
    generalize val_main_v19 (F := Ideal) x1 = idx
    exact gather_vec_apply hN _ dinv idx e
  have h28 : val_main_v28 (F := Ideal) x1 (ix1 e) =
      val_main_v12 (F := Ideal) x1 (ix1 (rowOf (N := 50000) hN (val_main_v27 (F := Ideal) x1) e)) := by
    unfold val_main_v28
    generalize val_main_v12 (F := Ideal) x1 = dinv
    generalize val_main_v27 (F := Ideal) x1 = idx
    exact gather_vec_apply hN _ dinv idx e
  rw [h20, h28]
  generalize val_main_v12 (F := Ideal) x1 = dinv
  generalize val_main_v5 (F := Ideal) x1 = offdiag
  rfl

/-- THE GATHERED SUPPORT: the row gather of `support` has at `(e, j)` the entry of `support` at row `col e` (the start index
    read signed and clamped into the table) and column `j`. -/
theorem support_at (e : Fin 800000) (j : Fin 64) :
    val_main_v37 (F := Ideal) x0 x1 x2 (ix2 e j) =
      val_main_v13 (F := Ideal) x0 x2 (ix2 (rowOf (N := 50000) hN (val_main_v36 (F := Ideal) x1) e) j) := by
  unfold val_main_v37
  generalize val_main_v13 (F := Ideal) x0 x2 = support
  generalize val_main_v36 (F := Ideal) x1 = idx
  exact gather_rows_apply hN _ support idx e j

/-- THE UPDATE OF EDGE `e` IN COLUMN `j`: the edge's weight times the support at row `col e`, column `j`. -/
theorem update_at (e : Fin 800000) (j : Fin 64) :
    val_main_v39 (F := Ideal) x0 x1 x2 (ix2 e j) =
      ((val_main_v12 (F := Ideal) x1 (ix1 (rowOf (N := 50000) hN (val_main_v19 (F := Ideal) x1) e))
            * val_main_v5 (F := Ideal) x1 (ix1 e))
          * val_main_v12 (F := Ideal) x1 (ix1 (rowOf (N := 50000) hN (val_main_v27 (F := Ideal) x1) e)))
        * val_main_v13 (F := Ideal) x0 x2 (ix2 (rowOf (N := 50000) hN (val_main_v36 (F := Ideal) x1) e) j) := by
  rw [val_main_v39_apply, weight_at, support_at]
  generalize val_main_v12 (F := Ideal) x1 = dinv
  generalize val_main_v5 (F := Ideal) x1 = offdiag
  generalize val_main_v13 (F := Ideal) x0 x2 = support
  rfl

/-- THE SEGMENT SUM: the updates added into a table of zeros have at `(n, j)` zero plus the updates `(e, j)` of the edges `e`
    whose row number, read signed, is `n`. -/
theorem seg_at (i : S50000x64.Idx) :
    val_main_v42 (F := Ideal) x0 x1 x2 i =
      0 + ∑ e ∈ Finset.univ.filter (fun e : Fin 800000 =>
            segOf (N := 50000) (val_main_v41 (F := Ideal) x1) e = some (fst2 i)),
          val_main_v39 (F := Ideal) x0 x1 x2 (ix2 e (snd2 i)) := by
  unfold val_main_v42
  generalize val_main_v41 (F := Ideal) x1 = idx
  generalize val_main_v39 (F := Ideal) x0 x1 x2 = upd
  refine (host_scatterAdd_seg_apply_idx (N := 50000) (E := 800000) (C := 64) _ idx
    (val_main_v40 (F := Ideal)) upd i).trans ?_
  refine congrArg (· + _) ?_
  rw [val_main_v40_apply, val_main_cst_7_apply]
  exact Ideal.ofBits_zero_f32

/-- THE REFERENCE READ AT AN INDEX `(n, j)`: zero plus the sum, over the edges `e` added to row `n`, of the edge's weight
    `(dinv[row e] · offdiag[e]) · dinv[col e]` times the support at row `col e`, column `j`; plus the self-loop term
    `(dinv[n] · dinv[n]) · support[n, j]`; plus the bias at `j`. -/
theorem ref_apply (i : S50000x64.Idx) :
    val_main_v50 (F := Ideal) x0 x1 x2 x3 i =
      ((0 + ∑ e ∈ Finset.univ.filter (fun e : Fin 800000 =>
              segOf (N := 50000) (val_main_v41 (F := Ideal) x1) e = some (fst2 i)),
            ((val_main_v12 (F := Ideal) x1 (ix1 (rowOf (N := 50000) hN (val_main_v19 (F := Ideal) x1) e))
                  * val_main_v5 (F := Ideal) x1 (ix1 e))
                * val_main_v12 (F := Ideal) x1 (ix1 (rowOf (N := 50000) hN (val_main_v27 (F := Ideal) x1) e)))
              * val_main_v13 (F := Ideal) x0 x2 (ix2 (rowOf (N := 50000) hN (val_main_v36 (F := Ideal) x1) e) (snd2 i)))
          + (val_main_v12 (F := Ideal) x1 (ix1 (fst2 i)) * val_main_v12 (F := Ideal) x1 (ix1 (fst2 i)))
            * val_main_v13 (F := Ideal) x0 x2 i)
        + x3 (ix1 (snd2 i)) := by
  rw [val_main_v50_apply, val_main_v47_apply, val_main_v46_apply, bias_at, self_at, seg_at]
  have hsum : (∑ e ∈ Finset.univ.filter (fun e : Fin 800000 =>
            segOf (N := 50000) (val_main_v41 (F := Ideal) x1) e = some (fst2 i)),
          val_main_v39 (F := Ideal) x0 x1 x2 (ix2 e (snd2 i))) =
      ∑ e ∈ Finset.univ.filter (fun e : Fin 800000 =>
            segOf (N := 50000) (val_main_v41 (F := Ideal) x1) e = some (fst2 i)),
        ((val_main_v12 (F := Ideal) x1 (ix1 (rowOf (N := 50000) hN (val_main_v19 (F := Ideal) x1) e))
              * val_main_v5 (F := Ideal) x1 (ix1 e))
            * val_main_v12 (F := Ideal) x1 (ix1 (rowOf (N := 50000) hN (val_main_v27 (F := Ideal) x1) e)))
          * val_main_v13 (F := Ideal) x0 x2 (ix2 (rowOf (N := 50000) hN (val_main_v36 (F := Ideal) x1) e) (snd2 i)) :=
    Finset.sum_congr rfl fun e _ => update_at x0 x1 x2 e (snd2 i)
  rw [hsum]
  generalize val_main_v12 (F := Ideal) x1 = dinv
  generalize val_main_v5 (F := Ideal) x1 = offdiag
  generalize val_main_v13 (F := Ideal) x0 x2 = support
  generalize val_main_v41 (F := Ideal) x1 = seg
  generalize val_main_v19 (F := Ideal) x1 = rowIdx
  generalize val_main_v27 (F := Ideal) x1 = colIdx
  generalize val_main_v36 (F := Ideal) x1 = colIdx2
  rfl

end Cert.ReferenceIdeal.RefAtIndex

end
-- ==== Proof.FiniteInputs.lean ====
/-
  The precondition, decoded: every entry of the three float inputs is a real number.

  The precondition is the conjunction of three tests "every |entry| < +∞", one per float input. An extended real
  whose absolute value max(x, −x) is below +∞ is neither infinity, hence the image of a real number.
-/
import proofs.«177149_j19361712570525_2_alg».proof.Pre_finite_inputs
import proofs.«177149_j19361712570525_2_alg».proof.Proof.Gen.Pre_finite_inputs
import proofs.«177149_j19361712570525_2_alg».proof.Proof.LibFinite
import Idealize.ShloMosaic.Lib.ReduceAll
import Idealize.ShloMosaic.PureOps.Ideal

noncomputable section

namespace Cert.GcnFinite

open Idealize.ShloMosaic Cert.LibFinite Cert.Pre_finite_inputs

instance : Subsingleton S_.Idx := ⟨fun a b => funext fun d => d.elim0⟩

/-- An extended real whose absolute value is below the pattern of +∞ is real. -/
theorem real_of_abs_lt (x : EReal)
    (h : Ideal.cmp .olt (max x (-x)) (Ideal.ofBits .f32 0x7F800000#32) = 1#1) : IsRealE x := by
  have htop : Ideal.ofBits .f32 0x7F800000#32 = ⊤ := by simp [Ideal.ofBits, Ideal.ieee]
  rw [htop] at h
  have hlt : max x (-x) < ⊤ := by
    by_contra hn
    unfold Ideal.cmp at h
    simp [hn] at h
  rw [isRealE_iff_ne]
  constructor
  · rintro rfl; simp at hlt
  · rintro rfl; simp at hlt

/-- Under the precondition the features, the weights and the bias have only real entries. -/
theorem inputs_real (x : FVec Ideal S50000x64 .f32) (a : IVec S2x800000 32) (w : FVec Ideal S64x64 .f32)
    (b : FVec Ideal S64 .f32) (h : fn (F := Ideal) x a w b = fun _ => 1#1) :
    AllReal x ∧ AllReal w ∧ AllReal b := by
  have h0 := congrFun h (fun d => d.elim0)
  dsimp only [fn] at h0
  obtain ⟨h12, h3⟩ := IntOp.andi_eq_one.1 h0
  obtain ⟨h1, h2⟩ := IntOp.andi_eq_one.1 h12
  refine ⟨fun i => ?_, fun i => ?_, fun i => ?_⟩
  · exact real_of_abs_lt _ (Host.reduce_andi_all _ _ _ _ _ h1 i)
  · exact real_of_abs_lt _ (Host.reduce_andi_all _ _ _ _ _ h2 i)
  · exact real_of_abs_lt _ (Host.reduce_andi_all _ _ _ _ _ h3 i)

end Cert.GcnFinite

end
-- ==== Proof.lean ====
/-
  A graph-convolution layer: out = D^(−1/2) (A + I) D^(−1/2) (x·W) + b, with A the off-diagonal part of the adjacency
  given as an edge list (duplicates summed), D its degrees plus one.

  The kernel computes the support x·W and the row-scaled support d ⊙ (x·W) in a first tiled call (d = deg^(−1/2)),
  aggregates on the host the masked rows of the scaled support at the edges' column numbers by the edges' row
  numbers, and in a second tiled call forms (d ⊙ agg + (d·d) ⊙ (x·W)) + b. The reference weights every edge by
  d[row]·mask·d[col] before aggregating rows of x·W, then adds (d·d) ⊙ (x·W) and b. Entry by entry, on the extended
  reals, the two differ only in where the row's factor d_r stands — outside the row's sum or inside each of its terms,
  read back at the edge's own row number, which is r for every edge of the sum. All factors are real numbers when the
  float inputs are finite (the degrees are at least one, so their powers −1/2 are real), and then d_r distributes over
  the sum. The row and column numbers are arbitrary 32-bit words: both programs drop an edge whose row number is out of
  range and wrap and clamp a column number in the same way, by the same operations.

  The three frames are the generated ones (the reference's is its generated run with the result dropped); no operation
  was rewritten by the idealization, so `preserves` is trivial.
-/
import proofs.«177149_j19361712570525_2_alg».proof.Defs
import proofs.«177149_j19361712570525_2_alg».proof.Proof.Gen.Kernel
import proofs.«177149_j19361712570525_2_alg».proof.Proof.Gen.Kernel.Frame
import proofs.«177149_j19361712570525_2_alg».proof.Proof.Gen.KernelIdeal
import proofs.«177149_j19361712570525_2_alg».proof.Proof.Gen.KernelIdeal.Frame
import proofs.«177149_j19361712570525_2_alg».proof.Proof.Gen.ReferenceIdeal
import proofs.«177149_j19361712570525_2_alg».proof.Proof.Gen.ReferenceIdeal.Run
import proofs.«177149_j19361712570525_2_alg».proof.Proof.Gen.ReferenceIdeal.Read
import proofs.«177149_j19361712570525_2_alg».proof.Proof.Gen.Pre_finite_inputs
import proofs.«177149_j19361712570525_2_alg».proof.Proof.RunValue
import proofs.«177149_j19361712570525_2_alg».proof.Proof.KernelAtIndex
import proofs.«177149_j19361712570525_2_alg».proof.Proof.RefAtIndex
import proofs.«177149_j19361712570525_2_alg».proof.Proof.Bridge
import proofs.«177149_j19361712570525_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both idealized programs run and end with the same result: entry by entry
    the kernel's result is `kernelOut` of the inputs, the reference's is `referenceOut`, and under the precondition
    (real features and weights) the two are equal. -/
theorem algebraic : Cert.algebraic_KernelIdeal_ReferenceIdeal := by
  intro m ρ m' ρ' hpre hagree
  refine ⟨fun c => Cert.KernelIdeal.Gen.W4 m ρ c (Proc.devRef .tc Cert.KernelIdeal.main_v28),
    Cert.KernelIdeal.RunValue.run_out m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, (hagree c).1, (hagree c).2.1, (hagree c).2.2.1, (hagree c).2.2.2]
  obtain ⟨hx, hw, _⟩ := Cert.GcnFinite.inputs_real _ _ _ _ (hpre c)
  funext i
  exact (Cert.ReferenceIdeal.RefAtIndex.ref_apply _ _ _ _ i).trans
    ((Cert.ReferenceIdeal.Bridge.kernelOut_eq_referenceOut _ _ _ _ hx hw i).symm.trans
      (Cert.KernelIdeal.KernelAtIndex.kernel_apply m ρ c i).symm)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
